-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 92
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 199
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S50000x128, .f32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S_, .f32⟩
  | 72 => ⟨S50000x128, .f32⟩
  | 73 => ⟨S50000x128, .i1⟩
  | 74 => ⟨S_, .f32⟩
  | 75 => ⟨S50000x128, .f32⟩
  | 76 => ⟨S50000x128, .f32⟩
  | 77 => ⟨S50000x128, .f32⟩
  | 78 => ⟨S50000x128, .f32⟩
  | 79 => ⟨S_, .f32⟩
  | 80 => ⟨S50000, .f32⟩
  | 81 => ⟨S50000x1, .f32⟩
  | 82 => ⟨S_, .f32⟩
  | 83 => ⟨S50000x1, .f32⟩
  | 84 => ⟨S50000x1, .f32⟩
  | 85 => ⟨S50000x128, .f32⟩
  | 86 => ⟨S50000x128, .f32⟩
  | 87 => ⟨S50000x128, .f32⟩
  | 88 => ⟨S_, .f32⟩
  | 89 => ⟨S50000, .f32⟩
  | 90 => ⟨S50000x1, .f32⟩
  | 91 => ⟨S_, .f32⟩
  | 92 => ⟨S50000x1, .f32⟩
  | 93 => ⟨S50000x1, .f32⟩
  | 94 => ⟨S50000x128, .f32⟩
  | 95 => ⟨S50000x128, .f32⟩
  | 96 => ⟨S_, .f32⟩
  | 97 => ⟨S50000x1, .f32⟩
  | 98 => ⟨S50000x1, .f32⟩
  | 99 => ⟨S50000x1, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S850000, .f32⟩
  | 111 => ⟨S_, .f32⟩
  | 112 => ⟨S50000, .f32⟩
  | 113 => ⟨S850000x1, .i32⟩
  | 114 => ⟨S50000, .f32⟩
  | 115 => ⟨S_, .f32⟩
  | 116 => ⟨S50000, .f32⟩
  | 117 => ⟨S50000, .i1⟩
  | 118 => ⟨S50000, .f32⟩
  | 119 => ⟨S_, .f32⟩
  | 120 => ⟨S_, .f32⟩
  | 121 => ⟨S50000, .f32⟩
  | 122 => ⟨S50000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000, .f32⟩
  | 13 => ⟨S850000, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x128, .f32⟩
  | 23 => ⟨S850000x1, .f32⟩
  | 24 => ⟨S850000x128, .f32⟩
  | 25 => ⟨S850000x128, .f32⟩
  | 26 => ⟨S_, .f32⟩
  | 27 => ⟨S50000x128, .f32⟩
  | 28 => ⟨S850000x1, .i32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S50000x128, .f32⟩
  | 43 => ⟨S_, .f32⟩
  | 44 => ⟨S50000, .f32⟩
  | 45 => ⟨S50000x1, .f32⟩
  | 46 => ⟨S_, .f32⟩
  | 47 => ⟨S50000x1, .f32⟩
  | 48 => ⟨S50000x1, .f32⟩
  | 49 => ⟨S50000x128, .f32⟩
  | 50 => ⟨S50000x128, .f32⟩
  | 51 => ⟨S_, .f32⟩
  | 52 => ⟨S50000x1, .f32⟩
  | 53 => ⟨S50000x1, .f32⟩
  | 54 => ⟨S50000x1, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S_, .f32⟩
  | 65 => ⟨S50000x128, .f32⟩
  | 66 => ⟨S50000x128, .i1⟩
  | 67 => ⟨S_, .f32⟩
  | 68 => ⟨S50000x128, .f32⟩
  | 69 => ⟨S50000x128, .f32⟩
  | 70 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_call2_v0 : Ref sig .tc := ⟨.hbm, 120, rfl⟩
abbrev main_call2_v1 : Ref sig .tc := ⟨.hbm, 121, rfl⟩
abbrev main_v81 : Ref sig .tc := ⟨.hbm, 122, rfl⟩
abbrev main_c_19 : Ref sig .tc := ⟨.hbm, 123, rfl⟩
abbrev main_v82 : Ref sig .tc := ⟨.hbm, 124, rfl⟩
abbrev main_v83 : Ref sig .tc := ⟨.hbm, 125, rfl⟩
abbrev main_c_20 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_21 : Ref sig .tc := ⟨.hbm, 132, rfl⟩
abbrev main_v89 : Ref sig .tc := ⟨.hbm, 133, rfl⟩
abbrev main_v90 : Ref sig .tc := ⟨.hbm, 134, rfl⟩
abbrev main_c_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_23 : Ref sig .tc := ⟨.hbm, 142, rfl⟩
abbrev main_v97 : Ref sig .tc := ⟨.hbm, 143, rfl⟩
abbrev main_v98 : Ref sig .tc := ⟨.hbm, 144, rfl⟩
abbrev main_c_24 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_25 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_26 : Ref sig .tc := ⟨.hbm, 162, rfl⟩
abbrev main_v114 : Ref sig .tc := ⟨.hbm, 163, rfl⟩
abbrev main_v115 : Ref sig .tc := ⟨.hbm, 164, rfl⟩
abbrev main_cst_27 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_28 : Ref sig .tc := ⟨.hbm, 171, rfl⟩
abbrev main_v121 : Ref sig .tc := ⟨.hbm, 172, rfl⟩
abbrev main_v122 : Ref sig .tc := ⟨.hbm, 173, rfl⟩
abbrev main_cst_29 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_30 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_31 : Ref sig .tc := ⟨.hbm, 191, rfl⟩
abbrev main_call3_cst : Ref sig .tc := ⟨.hbm, 192, rfl⟩
abbrev main_call3_v0 : Ref sig .tc := ⟨.hbm, 193, rfl⟩
abbrev main_call3_v1 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_v138 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  The program is four tiled regions among stretches of host operations.  Every weakly fair execution terminates,
  and in the final state every buffer that outlives the regions holds what the fold through the program leaves
  there: a host stretch applies its operations to the contents it finds, a region replaces its output array by
  what its grid points wrote back and leaves every other buffer alone.  Read at the result buffer this names
  the result; read at an argument it gives back the launch contents.
-/
import proofs.«166512_j2954937500451_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run_main : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Whole

end
-- ==== Proof.GraphConv.lean ====
/-
  Two graph-convolution layers, read row by row over the extended reals.

  A node's feature row has 128 entries.  One layer takes the aggregated row `a`, adds the bias row, and then
  * layer 1: applies the leaky rectifier, adds the residual row `x`, and normalises the row (subtract the row's
    mean, multiply by the reciprocal square root of the row's mean squared deviation plus a small offset, scale by
    `g`, shift by `b`);
  * layer 2: adds the residual row, normalises in the same way, and applies the leaky rectifier last.
  The dense step before each aggregation is a row of the feature matrix times a 128 x 128 weight matrix.

  Everything here is a function of rows `Fin 128 → EReal`; the whole-array functions at the end read a
  50000 x 128 array row by row.  The three float literals are kept as their binary32 words: both programs carry
  the same words, so they are never evaluated.
-/
import Idealize.ShloMosaic.PureOps.Ideal
import Idealize.ShloMosaic.PureOps.Ideal.Laws
import Idealize.ShloMosaic.Lib.ValueIdx

noncomputable section

open scoped BigOperators

namespace Cert.GraphConv

open Idealize.ShloMosaic Idealize.ShloMosaic.ValueIdx

/-- The slope of the leaky rectifier on the negative side: the binary32 word nearest 0.01. -/
def slope : EReal := Ideal.ofBits .f32 0x3C23D70A#32
/-- The offset added to a row's mean squared deviation: the binary32 word nearest 1e-5. -/
def offset : EReal := Ideal.ofBits .f32 0x3727C5AC#32
/-- The row width, 128, as the binary32 word the mean divides by. -/
def width : EReal := Ideal.ofBits .f32 0x43000000#32

/-- The mean of a row: its sum divided by the width. -/
def mean (s : Fin 128 → EReal) : EReal := Ideal.div (∑ k : Fin 128, s k) width

/-- Row normalisation at entry `q`: the deviation from the mean, times the reciprocal square root of the mean
    squared deviation plus the offset, scaled and shifted. -/
def normalise (s g b : Fin 128 → EReal) (q : Fin 128) : EReal :=
  (s q - mean s) * Ideal.rsqrt (mean (fun k => (s k - mean s) * (s k - mean s)) + offset) * g q + b q

/-- The leaky rectifier: the identity on positive values, multiplication by the slope elsewhere. -/
def leaky (y : EReal) : EReal := if 0 < y then y else y * slope

/-- Layer 1 at entry `q` of a row: bias, rectifier, residual, normalisation. -/
def layer1 (a bias x g b : Fin 128 → EReal) (q : Fin 128) : EReal :=
  normalise (fun k => leaky (a k + bias k) + x k) g b q

/-- Layer 2 at entry `q` of a row: bias, residual, normalisation, rectifier. -/
def layer2 (a bias x g b : Fin 128 → EReal) (q : Fin 128) : EReal :=
  leaky (normalise (fun k => a k + bias k + x k) g b q)

/-- A row times a 128 x 128 matrix, at column `q`. -/
def rowDot (a : Fin 128 → EReal) (w : Fin 128 → Fin 128 → EReal) (q : Fin 128) : EReal :=
  ∑ k : Fin 128, a k * w k q

/-! ## The two spellings of the rectifier -/

/-- "Select the value where it exceeds zero, else the value times the slope" is the rectifier. -/
theorem select_gt_eq_leaky (y : EReal) :
    Scalar.select (Ideal.cmp .ogt y (Ideal.ofBits .f32 0x00000000#32)) y (y * slope) = leaky y := by
  rw [Ideal.ofBits_zero_f32]
  unfold leaky Scalar.select Ideal.cmp
  by_cases h : (0 : EReal) < y <;> simp [h]

/-- "Select the value where it is at least zero, else the slope times the value" is the rectifier too: the two
    agree at zero, where both branches give zero, and multiplication of extended reals commutes. -/
theorem select_ge_eq_leaky (y : EReal) :
    Scalar.select (Ideal.cmp .oge y (Ideal.ofBits .f32 0x00000000#32)) y (slope * y) = leaky y := by
  rw [Ideal.ofBits_zero_f32]
  unfold leaky Scalar.select Ideal.cmp
  by_cases h : (0 : EReal) < y
  · simp [h, h.le]
  · by_cases h0 : (0 : EReal) ≤ y
    · have : y = 0 := le_antisymm (not_lt.mp h) h0
      subst this
      simp
    · simp [h, h0, mul_comm]

/-! ## Whole arrays, row by row -/

/-- The feature arrays' shape: 50000 nodes by 128 features. -/
abbrev Nodes : Shape := ⟨2, ![50000, 128]⟩
/-- A weight matrix's shape. -/
abbrev Weights : Shape := ⟨2, ![128, 128]⟩
/-- A bias, scale or shift vector's shape. -/
abbrev Feat : Shape := ⟨1, ![128]⟩

/-- Row `r` of a node array. -/
def rowOf (A : Nodes.Idx → EReal) (r : Fin 50000) : Fin 128 → EReal := fun k => A (ix2 r k)
/-- A weight matrix by its two coordinates. -/
def matOf (W : Weights.Idx → EReal) : Fin 128 → Fin 128 → EReal := fun k q => W (ix2 k q)
/-- A feature vector by its coordinate. -/
def vecOf (v : Feat.Idx → EReal) : Fin 128 → EReal := fun k => v (ix1 k)

/-- The dense step: every row of `A` times `W`. -/
def dense (A : Nodes.Idx → EReal) (W : Weights.Idx → EReal) : Nodes.Idx → EReal :=
  fun i => rowDot (rowOf A (i 0)) (matOf W) (i 1)

/-- Layer 1 applied to every row of the aggregated array `A` with residual `X`. -/
def post1 (A : Nodes.Idx → EReal) (bias : Feat.Idx → EReal) (X : Nodes.Idx → EReal) (g b : Feat.Idx → EReal) :
    Nodes.Idx → EReal :=
  fun i => layer1 (rowOf A (i 0)) (vecOf bias) (rowOf X (i 0)) (vecOf g) (vecOf b) (i 1)

/-- Layer 2 applied to every row of the aggregated array `A` with residual `X`. -/
def post2 (A : Nodes.Idx → EReal) (bias : Feat.Idx → EReal) (X : Nodes.Idx → EReal) (g b : Feat.Idx → EReal) :
    Nodes.Idx → EReal :=
  fun i => layer2 (rowOf A (i 0)) (vecOf bias) (rowOf X (i 0)) (vecOf g) (vecOf b) (i 1)

end Cert.GraphConv

end
-- ==== Proof.GraphNet.lean ====
/-
  The graph side of the two layers, and the whole network.

  The edge table has two rows of 800000 node numbers: sources and targets.  Every node also gets a self-loop, so
  each endpoint list is a row of the table followed by 0, 1, …, 49999 (850000 entries).  A node's degree counts
  the edges that end in it; an edge's weight is the product of the reciprocal square roots of its two endpoints'
  degrees (zero where a degree is not positive); aggregation gathers, for each edge, its source's feature row,
  scales it by the edge weight, and adds it into the target's row of an all-zero array.  A negative node number
  is read from the end of the node axis, as array indexing does.

  These are exactly the host operations both programs run on the edge table, so they are carried here as named
  functions of their inputs and never opened.  The network composes them with the dense steps and the two
  per-row layers.
-/
import proofs.«166512_j2954937500451_1_alg».proof.Proof.Gen.KernelIdeal
import proofs.«166512_j2954937500451_1_alg».proof.Proof.GraphConv
import Idealize.ShloMosaic.PureOps.Ideal

noncomputable section

namespace Cert.GraphConv

open Cert.KernelIdeal Cert.KernelIdeal.Facts₀ Idealize.ShloMosaic

variable {F : FTy → Type} [FloatOps F]

/-- The source endpoints: row 0 of the edge table, then every node's own number. -/
def sources (ei : (⟨S2x800000, .i32⟩ : BufTy).Contents (Elt F)) : (⟨S850000, .i32⟩ : BufTy).Contents (Elt F) :=
  concatenate S850000 0
    [⟨S800000, shapeCast S800000 (extractStridedSlice S1x800000 ![0, 0] ei slices_S2x800000_S1x800000_0_0) shapeCasts_S1x800000_S800000⟩,
      ⟨S50000, iotaInDim S50000 32 0⟩]
    concatenates_S800000_S50000_S850000_d0

/-- The target endpoints: row 1 of the edge table, then every node's own number. -/
def targets (ei : (⟨S2x800000, .i32⟩ : BufTy).Contents (Elt F)) : (⟨S850000, .i32⟩ : BufTy).Contents (Elt F) :=
  concatenate S850000 0
    [⟨S800000, shapeCast S800000 (extractStridedSlice S1x800000 ![1, 0] ei slices_S2x800000_S1x800000_1_0) shapeCasts_S1x800000_S800000⟩,
      ⟨S50000, iotaInDim S50000 32 0⟩]
    concatenates_S800000_S50000_S850000_d0

/-- Node numbers as gather positions: a negative number counts from the end of the 50000 nodes. -/
def positions (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- A node's degree: one for every edge (self-loops included) that ends in it. -/
def degree (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- The reciprocal square root of a node's degree, zero where the degree is not positive. -/
def invSqrtDegree (d : (⟨S850000, .i32⟩ : BufTy).Contents (Elt F)) : (⟨S50000, .f32⟩ : BufTy).Contents (Elt F) :=
  select (cmpf .ogt (degree d) (broadcastInDim S50000 ![] bcast_S_S50000 (constant S_ .f32 0x00000000#32)))
    (Host.rsqrt (degree d))
    (broadcastInDim S50000 ![] bcast_S_S50000 (constant S_ .f32 0x00000000#32))

/-- An edge's weight: the product of its endpoints' reciprocal square root degrees. -/
def edgeWeight (s d : (⟨S850000, .i32⟩ : BufTy).Contents (Elt F)) : (⟨S850000, .f32⟩ : BufTy).Contents (Elt F) :=
  mulf (Host.gather gather_S50000_S850000x1_S850000_n_0_n_n_0_1_1 (invSqrtDegree d) (positions s))
    (Host.gather gather_S50000_S850000x1_S850000_n_0_n_n_0_1_1 (invSqrtDegree d) (positions d))

/-- Aggregation: each edge's source row of `h`, scaled by the edge's weight, added into the target's row. -/
def aggregate (s d : (⟨S850000, .i32⟩ : BufTy).Contents (Elt F)) (w : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (positions s))
      (broadcastInDim S850000x128 ![0, 1] bcast_S850000x1_S850000x128_0_1
        (broadcastInDim S850000x1 ![0] bcast_S850000_S850000x1_0 w)))

/-- One propagation step at the ideal values: the dense step, then aggregation along the edges. -/
def propagate (ei : (⟨S2x800000, .i32⟩ : BufTy).Contents (Elt Ideal)) (A : Nodes.Idx → EReal) (W : Weights.Idx → EReal) :
    Nodes.Idx → EReal :=
  aggregate (F := Ideal) (sources ei) (targets ei) (edgeWeight (sources ei) (targets ei)) (dense A W)

/-- The network: propagate, layer 1, propagate, layer 2, both layers with the input features as residual. -/
def network (x : Nodes.Idx → EReal) (ei : (⟨S2x800000, .i32⟩ : BufTy).Contents (Elt Ideal))
    (W1 : Weights.Idx → EReal) (b1 g1 s1 : Feat.Idx → EReal) (W2 : Weights.Idx → EReal) (b2 g2 s2 : Feat.Idx → EReal) :
    Nodes.Idx → EReal :=
  post2 (propagate ei (post1 (propagate ei x W1) b1 x g1 s1) W2) b2 x g2 s2

end Cert.GraphConv

end
-- ==== Proof.KernelHost.lean ====
/-
  The idealized kernel's host stretches, read back.

  Before the first region the program computes, from the edge table alone, the two endpoint lists and the edge
  weights.  Between regions it aggregates the dense step's output along the edges and reshapes the bias, scale and
  shift vectors into one-row arrays.  Each lemma names the contents a stretch leaves in a buffer, as a graph
  function of the contents the stretch finds, or says that the stretch leaves the buffer alone.
-/
import proofs.«166512_j2954937500451_1_alg».proof.Proof.Gen.KernelIdeal.Launch
import proofs.«166512_j2954937500451_1_alg».proof.Proof.GraphNet
import Idealize.ShloMosaic.Lib.StableHlo.Run
import Idealize.ShloMosaic.Lib.ValueLayout

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo

variable {F : FTy → Type} [FloatOps F]
variable (V : Valuation τ sig (Elt F))

/-- A feature vector laid out as a one-row array. -/
def asRow (v : (⟨S128, .f32⟩ : BufTy).Contents (Elt F)) : (⟨S1x128, .f32⟩ : BufTy).Contents (Elt F) :=
  shapeCast S1x128 v Facts₀.shapeCasts_S128_S1x128

/-- The one row of a one-row array. -/
def oneRow (v : (⟨S1x128, .f32⟩ : BufTy).Contents (Elt Ideal)) : Fin 128 → EReal := fun k => v (ValueIdx.ix2 (0 : Fin 1) k)

/-- The one row of a vector laid out as a one-row array is the vector. -/
theorem oneRow_asRow (v : Feat.Idx → EReal) : oneRow (asRow (F := Ideal) v) = vecOf v :=
  funext fun k => ValueIdx.shapeCast_a_1a_apply v Facts₀.shapeCasts_S128_S1x128 (0 : Fin 1) k

/-! ## Before the first region -/

/-- The three stretches before the first region, as one map of buffer contents. -/
abbrev prelude : Valuation τ sig (Elt F) := after hostOps0_2 (after hostOps0_1 (after hostOps0 V))

/-- The prelude leaves the source endpoints of the edge table it finds. -/
theorem prelude_sources : prelude V (main_v3 : DevRef τ sig) = sources (V (main_arg1 : DevRef τ sig)) := by
  after_results_simp
  rfl

/-- The prelude leaves the target endpoints. -/
theorem prelude_targets : prelude V (main_v6 : DevRef τ sig) = targets (V (main_arg1 : DevRef τ sig)) := by
  after_results_simp
  rfl

/-- The prelude leaves the edge weights of those endpoints. -/
theorem prelude_weights : prelude V (main_v29 : DevRef τ sig)
    = edgeWeight (sources (V (main_arg1 : DevRef τ sig))) (targets (V (main_arg1 : DevRef τ sig))) := by
  after_results_simp
  rfl

/-- The prelude writes no float argument. -/
theorem prelude_keeps :
    prelude V (main_arg0 : DevRef τ sig) = V (main_arg0 : DevRef τ sig)
    ∧ prelude V (main_arg2 : DevRef τ sig) = V (main_arg2 : DevRef τ sig)
    ∧ prelude V (main_arg3 : DevRef τ sig) = V (main_arg3 : DevRef τ sig)
    ∧ prelude V (main_arg4 : DevRef τ sig) = V (main_arg4 : DevRef τ sig)
    ∧ prelude V (main_arg5 : DevRef τ sig) = V (main_arg5 : DevRef τ sig)
    ∧ prelude V (main_arg6 : DevRef τ sig) = V (main_arg6 : DevRef τ sig)
    ∧ prelude V (main_arg7 : DevRef τ sig) = V (main_arg7 : DevRef τ sig)
    ∧ prelude V (main_arg8 : DevRef τ sig) = V (main_arg8 : DevRef τ sig)
    ∧ prelude V (main_arg9 : DevRef τ sig) = V (main_arg9 : DevRef τ sig) := by
  refine ⟨?_, ?_, ?_, ?_, ?_, ?_, ?_, ?_, ?_⟩ <;> after_results_simp

/-! ## Between the first region and the second -/

/-- The stretch aggregates the first dense step's output along the edges. -/
theorem stretch1_aggregate : after (hostOps1 (F := F)) V (main_v43 : DevRef τ sig)
    = aggregate (V (main_v3 : DevRef τ sig)) (V (main_v6 : DevRef τ sig)) (V (main_v29 : DevRef τ sig)) (V (main_v30 : DevRef τ sig)) := by
  after_results_simp
  rfl

/-- The stretch lays the first layer's bias, scale and shift out as one-row arrays. -/
theorem stretch1_rows :
    after (hostOps1 (F := F)) V (main_v44 : DevRef τ sig) = asRow (V (main_arg3 : DevRef τ sig))
    ∧ after (hostOps1 (F := F)) V (main_v45 : DevRef τ sig) = asRow (V (main_arg4 : DevRef τ sig))
    ∧ after (hostOps1 (F := F)) V (main_v46 : DevRef τ sig) = asRow (V (main_arg5 : DevRef τ sig)) := by
  refine ⟨?_, ?_, ?_⟩ <;> (after_results_simp; rfl)

/-- The stretch leaves the features, the second layer's arguments, the endpoints and the edge weights alone. -/
theorem stretch1_keeps :
    after (hostOps1 (F := F)) V (main_arg0 : DevRef τ sig) = V (main_arg0 : DevRef τ sig)
    ∧ after (hostOps1 (F := F)) V (main_arg6 : DevRef τ sig) = V (main_arg6 : DevRef τ sig)
    ∧ after (hostOps1 (F := F)) V (main_arg7 : DevRef τ sig) = V (main_arg7 : DevRef τ sig)
    ∧ after (hostOps1 (F := F)) V (main_arg8 : DevRef τ sig) = V (main_arg8 : DevRef τ sig)
    ∧ after (hostOps1 (F := F)) V (main_arg9 : DevRef τ sig) = V (main_arg9 : DevRef τ sig)
    ∧ after (hostOps1 (F := F)) V (main_v3 : DevRef τ sig) = V (main_v3 : DevRef τ sig)
    ∧ after (hostOps1 (F := F)) V (main_v6 : DevRef τ sig) = V (main_v6 : DevRef τ sig)
    ∧ after (hostOps1 (F := F)) V (main_v29 : DevRef τ sig) = V (main_v29 : DevRef τ sig) := by
  refine ⟨?_, ?_, ?_, ?_, ?_, ?_, ?_, ?_⟩ <;> after_results_simp

/-! ## Between the third region and the fourth -/

/-- The stretch aggregates the second dense step's output along the edges. -/
theorem stretch3_aggregate : after (hostOps3 (F := F)) V (main_v61 : DevRef τ sig)
    = aggregate (V (main_v3 : DevRef τ sig)) (V (main_v6 : DevRef τ sig)) (V (main_v29 : DevRef τ sig)) (V (main_v48 : DevRef τ sig)) := by
  after_results_simp
  rfl

/-- The stretch lays the second layer's bias, scale and shift out as one-row arrays. -/
theorem stretch3_rows :
    after (hostOps3 (F := F)) V (main_v62 : DevRef τ sig) = asRow (V (main_arg7 : DevRef τ sig))
    ∧ after (hostOps3 (F := F)) V (main_v63 : DevRef τ sig) = asRow (V (main_arg8 : DevRef τ sig))
    ∧ after (hostOps3 (F := F)) V (main_v64 : DevRef τ sig) = asRow (V (main_arg9 : DevRef τ sig)) := by
  refine ⟨?_, ?_, ?_⟩ <;> (after_results_simp; rfl)

/-- The stretch leaves the features alone. -/
theorem stretch3_keeps : after (hostOps3 (F := F)) V (main_arg0 : DevRef τ sig) = V (main_arg0 : DevRef τ sig) := by
  after_results_simp

end Cert.KernelIdeal.Whole

end
-- ==== Proof.BlockBodies.lean ====
/-
  The four kernel bodies, read entry by entry over the extended reals.

  Each body works on a block of 2000 rows of 128 entries.  Bodies 0 and 2 multiply the block of rows by a
  128 x 128 matrix, summing into zero: entry (p, q) of the result is the sum over k of row p's entry k times the
  matrix's entry (k, q).  Bodies 1 and 3 work row by row: they add the bias row and the residual row, apply the
  leaky rectifier (before the residual in body 1, after everything in body 3) and normalise the row — subtract the
  row's mean, multiply by the reciprocal square root of the mean squared deviation plus a small offset, scale and
  shift.  A row's mean is its lane sum divided by the width; both are kept as a column of per-row values and
  repeated along the lanes.

  The theorems at the end state that the block each body leaves in its output window is, at row p and column q,
  the row function of GraphConv.lean applied to row p of the input blocks (and the one row of each bias, scale
  and shift block).  On extended reals every operation is exact and the narrowing to bf16 is the identity, so each
  statement is the body's operations read at one index.
-/
import proofs.«166512_j2954937500451_1_alg».proof.Proof.Gen.KernelIdeal.Frame
import proofs.«166512_j2954937500451_1_alg».proof.Proof.GraphConv
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockBodies

open Cert.KernelIdeal Cert.KernelIdeal.Gen Idealize.ShloMosaic Idealize.ShloMosaic.ValueIdx Cert.GraphConv

/-- The dimension numbers of the block product: rows by columns, one contracted axis of 128. -/
abbrev DD : DotDims S2000x128 S128x128 S2000x128 := dot_S2000x128_S128x128_S2000x128_1_0_0_1_n_n

/-- The offsets of every load and store of the four bodies are zero. -/
theorem offs_zero : (![0, 0] : Fin 2 → Nat) = fun _ => 0 := funext fun a => by fin_cases a <;> rfl

/-- The left operand is read in the output's row … -/
theorem lhs_row (i : S2000x128.Idx) (c : DD.contr.Idx) : (DD.lhsIdx i c 0).val = (i 0).val := by
  unfold DotDims.lhsIdx
  rw [dif_neg (show ¬(0 : Fin S2000x128.rank) ∈ DD.lhsBatch by decide),
    dif_pos (show (0 : Fin S2000x128.rank) ∈ DD.lhsNonContracting by decide)]
  rfl
/-- … at the contracted position, … -/
theorem lhs_col (i : S2000x128.Idx) (c : DD.contr.Idx) : (DD.lhsIdx i c 1).val = (c ⟨0, by decide⟩).val :=
  DD.lhsIdx_val_of_single rfl i c
/-- … the right operand in the contracted position's row … -/
theorem rhs_row (i : S2000x128.Idx) (c : DD.contr.Idx) : (DD.rhsIdx i c 0).val = (c ⟨0, by decide⟩).val :=
  DD.rhsIdx_val_of_single rfl i c
/-- … at the output's column. -/
theorem rhs_col (i : S2000x128.Idx) (c : DD.contr.Idx) : (DD.rhsIdx i c 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl

/-- A block of rows times a 128 x 128 matrix, accumulated into zero, at row p and column q: the sum over the
    128 contracted positions of the row's entry times the matrix's entry in column q. -/
theorem matmul_block (a : FVec Ideal S2000x128 .bf16) (w : FVec Ideal S128x128 .bf16) (p : Fin 2000) (q : Fin 128) :
    matmul DD none a w (constant S2000x128 .f32 0x00000000#32) (ix2 p q)
      = ∑ k : Fin 128, a (ix2 p k) * w (ix2 k q) := by
  refine (Ideal.matmul_constant_zero_apply DD none a w (ix2 p q)).trans ?_
  rw [← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun ax => Fin.ext (by
    match ax with
    | ⟨0, _⟩ => exact lhs_row _ _
    | ⟨1, _⟩ => exact (lhs_col _ _).trans hk)
  have er : DD.rhsIdx (ix2 p q) ((contrEquiv1 DD 128 rfl rfl).symm k) = ix2 k q := funext fun ax => Fin.ext (by
    match ax with
    | ⟨0, _⟩ => exact (rhs_row _ _).trans hk
    | ⟨1, _⟩ => exact rhs_col _ _)
  rw [el, er]

/-- Body 0: the block left in the output window is, entry by entry, the row of the first block times the
    128 x 128 matrix (the narrowing to bf16 is the identity on extended reals). -/
theorem dense_block0 (x0 : Vec Ideal S2000x128 .f32) (x1 : Vec Ideal S128x128 .f32) (p : Fin 2000) (q : Fin 128) :
    out0_2 (F := Ideal) x0 x1 (ix2 p q) = rowDot (fun k => x0 (ix2 p k)) (fun k q' => x1 (ix2 k q')) q := by
  unfold out0_2
  rw [View.canon_unit_zero offs_zero]
  simp only [View.ld_unit_zero (S := S2000x128) offs_zero, View.ld_unit_zero (S := S128x128) offs_zero]
  unfold k0_pay1 rowDot
  exact matmul_block _ _ p q

/-- Body 2: the same product; the shape cast in front of it is to the same shape. -/
theorem dense_block2 (x0 : Vec Ideal S2000x128 .f32) (x1 : Vec Ideal S128x128 .f32) (p : Fin 2000) (q : Fin 128) :
    out2_2 (F := Ideal) x0 x1 (ix2 p q) = rowDot (fun k => x0 (ix2 p k)) (fun k q' => x1 (ix2 k q')) q := by
  unfold out2_2
  rw [View.canon_unit_zero offs_zero]
  simp only [View.ld_unit_zero (S := S2000x128) offs_zero, View.ld_unit_zero (S := S128x128) offs_zero]
  unfold k2_pay1 rowDot
  simp only [shapeCast_self]
  exact matmul_block _ _ p q

/-! ## Layout operations of the normalisation, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the lanes of a 2000 x 128 block, at row `p`: the sum of the row's 128 entries. -/
theorem lane_sum (v : FVec Ideal S2000x128 .f32) (hacc : (0x00000000#32 : BitVec 32) = 0x00000000#32) (p : Fin 2000) :
    multiReduction .add [1] S2000 v 0x00000000#32 reduces_S2000x128_S2000 (.inl rfl) hacc (ix1 p)
      = ∑ k : Fin 128, v (ix2 p k) := by
  refine (Ideal.multiReduction_add_single v _ reduces_S2000x128_S2000 (.inl rfl) hacc (ix1 p)).trans ?_
  refine Finset.sum_congr rfl fun k _ => congrArg v ?_
  funext ax
  apply Fin.ext
  match ax with
  | ⟨0, _⟩ => rfl
  | ⟨1, _⟩ => rfl

/-! ## The normalisation as the two row-wise bodies spell it -/

/-- One bias, scale or shift row repeated over the 2000 rows reads, in every row, that row. -/
theorem row_bcast (v : FVec Ideal S1x128 .f32) (p : Fin 2000) (k : Fin 128) :
    broadcastTo S2000x128 v broadcasts_S1x128_S2000x128 (ix2 p k) = v (ix2 (0 : Fin 1) k) :=
  broadcastTo_1b_ab_apply v _ p k

/-- A column of per-row values repeated along the lanes reads, in every lane, the row's value. -/
theorem col_bcast (v : FVec Ideal S2000x1 .f32) (p : Fin 2000) (k : Fin 128) :
    broadcastTo S2000x128 v broadcasts_S2000x1_S2000x128 (ix2 p k) = v (ix2 p (0 : Fin 1)) :=
  broadcastTo_a1_ab_apply v _ p k

/-- The mean of every row, kept as a column: the lane sum, cast to a column, divided by the width word. -/
def rowMeanV (s : FVec Ideal S2000x128 .f32) : FVec Ideal S2000x1 .f32 :=
  divf (shapeCast S2000x1 (multiReduction .add [1] S2000 s 0x00000000#32 reduces_S2000x128_S2000 (.inl rfl) rfl)
      shapeCasts_S2000_S2000x1)
    (broadcast S2000x1 (Scalar.ofBits (F := Ideal) .f32 0x43000000#32))

/-- Every entry less its row's mean. -/
def centredV (s : FVec Ideal S2000x128 .f32) : FVec Ideal S2000x128 .f32 :=
  subf s (broadcastTo S2000x128 (rowMeanV s) broadcasts_S2000x1_S2000x128)

/-- The normalised block: the deviations, times the reciprocal square root of the rows' mean squared deviation plus
    the offset word, times the scale block, plus the shift block. -/
def normV (s g b : FVec Ideal S2000x128 .f32) : FVec Ideal S2000x128 .f32 :=
  addf (mulf (mulf (centredV s)
    (broadcastTo S2000x128
      (rsqrt (addf (rowMeanV (mulf (centredV s) (centredV s)))
        (broadcast S2000x1 (Scalar.ofBits (F := Ideal) .f32 0x3727C5AC#32))))
      broadcasts_S2000x1_S2000x128)) g) b

/-- The column of means holds, in row `p`, the mean of row `p`. -/
theorem rowMeanV_apply (s : FVec Ideal S2000x128 .f32) (p : Fin 2000) (u : Fin 1) :
    rowMeanV s (ix2 p u) = mean (fun k => s (ix2 p k)) := by
  unfold rowMeanV mean width
  refine (divf_apply _ _ _).trans ?_
  refine congrArg₂ Ideal.div ?_ rfl
  refine (shapeCast_a_a1_apply _ shapeCasts_S2000_S2000x1 p u).trans ?_
  exact lane_sum s rfl p

/-- The deviation at `(p, q)` is the entry less the mean of row `p`. -/
theorem centredV_apply (s : FVec Ideal S2000x128 .f32) (p : Fin 2000) (q : Fin 128) :
    centredV s (ix2 p q) = s (ix2 p q) - mean (fun k => s (ix2 p k)) := by
  unfold centredV
  refine (subf_apply _ _ _).trans ?_
  refine congrArg (s (ix2 p q) - ·) ?_
  refine (col_bcast _ p q).trans ?_
  exact rowMeanV_apply s p 0

/-- The normalised block at `(p, q)` is the row normalisation of row `p` at entry `q`, with the scale and shift
    blocks read in the same row. -/
theorem normV_apply (s g b : FVec Ideal S2000x128 .f32) (p : Fin 2000) (q : Fin 128) :
    normV s g b (ix2 p q)
      = normalise (fun k => s (ix2 p k)) (fun k => g (ix2 p k)) (fun k => b (ix2 p k)) q := by
  have hr : broadcastTo S2000x128
        (rsqrt (addf (rowMeanV (mulf (centredV s) (centredV s)))
          (broadcast S2000x1 (Scalar.ofBits (F := Ideal) .f32 0x3727C5AC#32))))
        broadcasts_S2000x1_S2000x128 (ix2 p q)
      = Ideal.rsqrt (mean (fun k => (s (ix2 p k) - mean (fun k' => s (ix2 p k')))
          * (s (ix2 p k) - mean (fun k' => s (ix2 p k')))) + offset) := by
    refine (col_bcast _ p q).trans ?_
    show Ideal.rsqrt (rowMeanV (mulf (centredV s) (centredV s)) (ix2 p (0 : Fin 1)) + offset) = _
    rw [rowMeanV_apply]
    refine congrArg (fun m => Ideal.rsqrt (m + offset)) ?_
    refine congrArg mean (funext fun k => ?_)
    refine (mulf_apply _ _ _).trans ?_
    rw [centredV_apply]
  unfold normV normalise
  refine (addf_apply _ _ _).trans ?_
  refine congrArg (· + b (ix2 p q)) ?_
  refine (mulf_apply _ _ _).trans ?_
  refine congrArg (· * g (ix2 p q)) ?_
  refine (mulf_apply _ _ _).trans ?_
  rw [hr, centredV_apply]

/-! ## The two row-wise bodies -/

/-- The leaky rectifier as the bodies spell it: where the value exceeds the zero word the value, elsewhere the value
    times the slope word. -/
def leakyV (y : FVec Ideal S2000x128 .f32) : FVec Ideal S2000x128 .f32 :=
  select (cmpf .ogt y (broadcast S2000x128 (Scalar.ofBits (F := Ideal) .f32 0x00000000#32))) y
    (mulf y (broadcast S2000x128 (Scalar.ofBits (F := Ideal) .f32 0x3C23D70A#32)))

/-- Entry by entry it is the rectifier. -/
theorem leakyV_apply (y : FVec Ideal S2000x128 .f32) (i : S2000x128.Idx) : leakyV y i = leaky (y i) :=
  select_gt_eq_leaky (y i)

/-- What body 1 normalises: the aggregated block plus the bias row, rectified, plus the residual block. -/
def pre1 (a : FVec Ideal S2000x128 .f32) (bias : FVec Ideal S1x128 .f32) (x : FVec Ideal S2000x128 .f32) :
    FVec Ideal S2000x128 .f32 :=
  addf (leakyV (addf a (broadcastTo S2000x128 bias broadcasts_S1x128_S2000x128))) x

theorem pre1_apply (a : FVec Ideal S2000x128 .f32) (bias : FVec Ideal S1x128 .f32) (x : FVec Ideal S2000x128 .f32)
    (p : Fin 2000) (k : Fin 128) :
    pre1 a bias x (ix2 p k) = leaky (a (ix2 p k) + bias (ix2 (0 : Fin 1) k)) + x (ix2 p k) := by
  unfold pre1
  refine (addf_apply _ _ _).trans ?_
  refine congrArg (· + x (ix2 p k)) ?_
  refine (leakyV_apply _ _).trans ?_
  refine congrArg leaky ?_
  refine (addf_apply _ _ _).trans ?_
  exact congrArg (a (ix2 p k) + ·) (row_bcast bias p k)

/-- What body 3 normalises: the aggregated block plus the bias row plus the residual block. -/
def pre2 (a : FVec Ideal S2000x128 .f32) (bias : FVec Ideal S1x128 .f32) (x : FVec Ideal S2000x128 .f32) :
    FVec Ideal S2000x128 .f32 :=
  addf (addf a (broadcastTo S2000x128 bias broadcasts_S1x128_S2000x128)) x

theorem pre2_apply (a : FVec Ideal S2000x128 .f32) (bias : FVec Ideal S1x128 .f32) (x : FVec Ideal S2000x128 .f32)
    (p : Fin 2000) (k : Fin 128) :
    pre2 a bias x (ix2 p k) = a (ix2 p k) + bias (ix2 (0 : Fin 1) k) + x (ix2 p k) := by
  unfold pre2
  refine (addf_apply _ _ _).trans ?_
  refine congrArg (· + x (ix2 p k)) ?_
  refine (addf_apply _ _ _).trans ?_
  exact congrArg (a (ix2 p k) + ·) (row_bcast bias p k)

/-- Body 1's arithmetic is the normalisation of `pre1` with the scale and shift rows repeated over the rows
    (the shape casts in it are to the same shape). -/
theorem k1_pay1_eq (bias g b : Vec Ideal S1x128 .f32) (a x : Vec Ideal S2000x128 .f32) :
    k1_pay1 (F := Ideal) bias g b a x
      = normV (pre1 a bias x) (broadcastTo S2000x128 g broadcasts_S1x128_S2000x128)
          (broadcastTo S2000x128 b broadcasts_S1x128_S2000x128) := by
  unfold k1_pay1
  simp only [shapeCast_self]
  rfl

/-- Body 3's arithmetic is the rectifier of the normalisation of `pre2`. -/
theorem k3_pay1_eq (bias g b : Vec Ideal S1x128 .f32) (a x : Vec Ideal S2000x128 .f32) :
    k3_pay1 (F := Ideal) bias g b a x
      = leakyV (normV (pre2 a bias x) (broadcastTo S2000x128 g broadcasts_S1x128_S2000x128)
          (broadcastTo S2000x128 b broadcasts_S1x128_S2000x128)) := by
  unfold k3_pay1
  simp only [shapeCast_self]
  rfl

/-- Body 1: the block left in the output window is, entry by entry, layer 1 of the row. -/
theorem layer1_block (x0 : Vec Ideal S2000x128 .f32) (x1 : Vec Ideal S1x128 .f32) (x2 : Vec Ideal S2000x128 .f32)
    (x3 x4 : Vec Ideal S1x128 .f32) (p : Fin 2000) (q : Fin 128) :
    out1_5 (F := Ideal) x0 x1 x2 x3 x4 (ix2 p q)
      = layer1 (fun k => x0 (ix2 p k)) (fun k => x1 (ix2 (0 : Fin 1) k)) (fun k => x2 (ix2 p k))
          (fun k => x3 (ix2 (0 : Fin 1) k)) (fun k => x4 (ix2 (0 : Fin 1) k)) q := by
  unfold out1_5
  rw [View.canon_unit_zero offs_zero]
  simp only [View.ld_unit_zero (S := S2000x128) offs_zero, View.ld_unit_zero (S := S1x128) offs_zero]
  rw [k1_pay1_eq, normV_apply]
  unfold layer1
  simp only [pre1_apply, row_bcast]

/-- Body 3: the block left in the output window is, entry by entry, layer 2 of the row. -/
theorem layer2_block (x0 : Vec Ideal S2000x128 .f32) (x1 : Vec Ideal S1x128 .f32) (x2 : Vec Ideal S2000x128 .f32)
    (x3 x4 : Vec Ideal S1x128 .f32) (p : Fin 2000) (q : Fin 128) :
    out3_5 (F := Ideal) x0 x1 x2 x3 x4 (ix2 p q)
      = layer2 (fun k => x0 (ix2 p k)) (fun k => x1 (ix2 (0 : Fin 1) k)) (fun k => x2 (ix2 p k))
          (fun k => x3 (ix2 (0 : Fin 1) k)) (fun k => x4 (ix2 (0 : Fin 1) k)) q := by
  unfold out3_5
  rw [View.canon_unit_zero offs_zero]
  simp only [View.ld_unit_zero (S := S2000x128) offs_zero, View.ld_unit_zero (S := S1x128) offs_zero]
  rw [k3_pay1_eq, leakyV_apply, normV_apply]
  unfold layer2
  simp only [pre2_apply, row_bcast]

end Cert.KernelIdeal.BlockBodies

end
-- ==== Proof.RegionDense0.lean ====
/-
  The first dense region, from blocks to the whole array.

  The region's grid has 25 points; point `t` reads rows 2000 t … 2000 t + 1999 of the feature array and the whole
  weight matrix, and writes the same rows of the output.  A cell of the block a point writes is the row of the
  block times the weight matrix (the body lemma); the block's row is the array's row; so the point writes the
  block of "every row times the weights", and the 25 blocks cover the output.
-/
import proofs.«166512_j2954937500451_1_alg».proof.Proof.Gen.KernelIdeal.Frame
import proofs.«166512_j2954937500451_1_alg».proof.Proof.BlockBodies
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.BlockBodies Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Over the grid: the row block index of the input rows is the output's, every other block index is zero, and
    the row block index is the point's number. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A cell of a dense block is the dense step's cell of the whole array, when the block's row is the array's row
    and the weights are the whole weight matrix. -/
theorem dense_cell (x0 : Vec Ideal S2000x128 .f32) (x1 : Vec Ideal S128x128 .f32) (A : Nodes.Idx → EReal) (W : Weights.Idx → EReal)
    (y : S2000x128.Idx) (i : Nodes.Idx)
    (h0 : ∀ k : Fin 128, x0 (ix2 (y 0) k) = A (ix2 (i 0) k))
    (h1 : ∀ k q' : Fin 128, x1 (ix2 k q') = W (ix2 k q'))
    (hq : (y 1).val = (i 1).val) :
    out0_2 (F := Ideal) x0 x1 y = dense A W i := by
  obtain ⟨p, q, rfl⟩ : ∃ (p : Fin 2000) (q : Fin 128), y = ix2 p q := ⟨y 0, y 1, eq_ix2 y⟩
  obtain ⟨r, q2, rfl⟩ : ∃ (r : Fin 50000) (q2 : Fin 128), i = ix2 r q2 := ⟨i 0, i 1, eq_ix2 i⟩
  obtain rfl : q = q2 := Fin.ext hq
  rw [dense_block0]
  unfold dense rowDot rowOf matOf
  exact Finset.sum_congr rfl fun k _ => congrArg₂ (· * ·) (h0 k) (h1 k q)

/-- What point `t` writes back is block `t` of "every row of the features the region finds times the weights". -/
theorem flushed0 (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  obtain ⟨e00, e01, e10, e11, e20, e21⟩ := idx0 t
  funext y
  show out0_2 (iblk0 V c 0 t) (iblk0 V c 1 t) y = dense (V c main_arg0) (V c main_arg2) (((cfg0.win 2).blk t).view.emb y)
  refine dense_cell _ _ _ _ y _ (fun k => ?_) (fun k q' => ?_) ?_
  · show V c main_arg0 (((cfg0.win 0).blk t).view.emb (ix2 (y 0) k)) = V c main_arg0 _
    refine congrArg (V c main_arg0) (funext fun a => Fin.ext ?_)
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 128 + 1 * k.val = k.val; omega
  · show V c main_arg2 (((cfg0.win 1).blk t).view.emb (ix2 k q')) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q'.val = q'.val; omega
  · show (y 1).val = win0_2.index t (1 : Fin 2) * 128 + 1 * (y 1).val; omega

/-- The dense step's output array after region 0: every row of the entry features times the weights.  Row `r`
    lies in the block of point `r / 2000`, so the 25 blocks cover the array. -/
theorem final0 (c : Dev nD) : (dat0 V c).arrAt 2 cfg0.N = dense (V c main_arg0) (V c main_arg2) :=
  (dat0 V c).arrAt_eq_of_cover 2 (dense (V c main_arg0) (V c main_arg2)) (fun t _ => flushed0 V c t) fun i => by
    have hi0 : (i 0).val < 50000 := (i 0).isLt
    have hi1 : (i 1).val < 128 := (i 1).isLt
    obtain ⟨t, ht⟩ : ∃ t : Fin cfg0.N, t.val = (i 0).val / 2000 :=
      ⟨⟨(i 0).val / 2000, by rw [show cfg0.N = 25 from N_0]; omega⟩, rfl⟩
    obtain ⟨e00, e01, e10, e11, e20, e21⟩ := idx0 t
    refine ⟨t, flush0_2 t, ?_⟩
    show i ∈ ((View.whole main_v30).slice (win0_2.rect t)).set
    rw [View.set_slice_whole, Rect.mem_set_unit]
    intro a
    match a with
    | ⟨0, _⟩ => show win0_2.index t (0 : Fin 2) * 2000 ≤ (i 0).val ∧ (i 0).val < win0_2.index t (0 : Fin 2) * 2000 + 2000; omega
    | ⟨1, _⟩ => show win0_2.index t (1 : Fin 2) * 128 ≤ (i 1).val ∧ (i 1).val < win0_2.index t (1 : Fin 2) * 128 + 128; omega

end Cert.KernelIdeal.Whole

end
-- ==== Proof.RegionRows1.lean ====
/-
  The first per-row region, from blocks to the whole array.

  The region's grid has 25 points; point `t` reads rows 2000 t … 2000 t + 1999 of the aggregated array and of the
  residual (the input features), and the three one-row arrays (bias, scale, shift) whole, and writes the same rows
  of the output.  A cell of the block a point writes is layer 1 of the block's row (the body lemma); the block's
  rows are the arrays' rows; so the point writes the block of "layer 1 of every row", and the blocks cover the
  output.
-/
import proofs.«166512_j2954937500451_1_alg».proof.Proof.Gen.KernelIdeal.Frame
import proofs.«166512_j2954937500451_1_alg».proof.Proof.BlockBodies
import proofs.«166512_j2954937500451_1_alg».proof.Proof.KernelHost
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.BlockBodies Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Over the grid: the aggregated rows, the residual rows and the output rows move together with the point's
    number; the three one-row arrays stay at block zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A cell of a layer-1 block is layer 1 of the whole arrays' row, when the block's rows are the arrays' rows and
    the one-row blocks are the one-row arrays. -/
theorem layer1_cell (x0 : Vec Ideal S2000x128 .f32) (x1 : Vec Ideal S1x128 .f32) (x2 : Vec Ideal S2000x128 .f32) (x3 x4 : Vec Ideal S1x128 .f32)
    (A X : Nodes.Idx → EReal) (b g s : Fin 128 → EReal) (y : S2000x128.Idx) (i : Nodes.Idx)
    (h0 : ∀ k : Fin 128, x0 (ix2 (y 0) k) = A (ix2 (i 0) k))
    (h1 : ∀ k : Fin 128, x1 (ix2 (0 : Fin 1) k) = b k)
    (h2 : ∀ k : Fin 128, x2 (ix2 (y 0) k) = X (ix2 (i 0) k))
    (h3 : ∀ k : Fin 128, x3 (ix2 (0 : Fin 1) k) = g k)
    (h4 : ∀ k : Fin 128, x4 (ix2 (0 : Fin 1) k) = s k)
    (hq : (y 1).val = (i 1).val) :
    out1_5 (F := Ideal) x0 x1 x2 x3 x4 y = layer1 (rowOf A (i 0)) b (rowOf X (i 0)) g s (i 1) := by
  obtain ⟨p, q, rfl⟩ : ∃ (p : Fin 2000) (q : Fin 128), y = ix2 p q := ⟨y 0, y 1, eq_ix2 y⟩
  obtain ⟨r, q2, rfl⟩ : ∃ (r : Fin 50000) (q2 : Fin 128), i = ix2 r q2 := ⟨i 0, i 1, eq_ix2 i⟩
  obtain rfl : q = q2 := Fin.ext hq
  rw [layer1_block]
  have e0 : (fun k => x0 (ix2 p k)) = rowOf A r := funext h0
  have e1 : (fun k => x1 (ix2 (0 : Fin 1) k)) = b := funext h1
  have e2 : (fun k => x2 (ix2 p k)) = rowOf X r := funext h2
  have e3 : (fun k => x3 (ix2 (0 : Fin 1) k)) = g := funext h3
  have e4 : (fun k => x4 (ix2 (0 : Fin 1) k)) = s := funext h4
  rw [e0, e1, e2, e3, e4]

/-- Layer 1 of every row of the arrays region 1 finds. -/
def rows1 (c : Dev nD) : Nodes.Idx → EReal := fun i =>
  layer1 (rowOf (V c main_v43) (i 0)) (oneRow (V c main_v44)) (rowOf (V c main_arg0) (i 0)) (oneRow (V c main_v45)) (oneRow (V c main_v46)) (i 1)

/-- What point `t` writes back is block `t` of "layer 1 of every row" of the arrays the region finds. -/
theorem flushed1 (c : Dev nD) (t : Fin cfg1.N) :
    (dat1 V c).flushed 5 t = ((cfg1.win 5).blk t).view.read (Elt Ideal) (rows1 V c) := by
  show (cfg1.win 5).cut (grid1.coords t) ((dat1 V c).after 5 t) = _
  rw [after1_5]
  obtain ⟨e00, e01, e10, e11, e20, e21, e30, e31, e40, e41, e50, e51⟩ := idx1 t
  funext y
  show out1_5 (iblk1 V c 0 t) (iblk1 V c 1 t) (iblk1 V c 2 t) (iblk1 V c 3 t) (iblk1 V c 4 t) y = rows1 V c (((cfg1.win 5).blk t).view.emb y)
  refine layer1_cell _ _ _ _ _ _ _ _ _ _ y _ (fun k => ?_) (fun k => ?_) (fun k => ?_) (fun k => ?_) (fun k => ?_) ?_
  · show V c main_v43 (((cfg1.win 0).blk t).view.emb (ix2 (y 0) k)) = V c main_v43 _
    refine congrArg (V c main_v43) (funext fun a => Fin.ext ?_)
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 128 + 1 * k.val = k.val; omega
  · show V c main_v44 (((cfg1.win 1).blk t).view.emb (ix2 (0 : Fin 1) k)) = V c main_v44 _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg0 (((cfg1.win 2).blk t).view.emb (ix2 (y 0) k)) = V c main_arg0 _
    refine congrArg (V c main_arg0) (funext fun a => Fin.ext ?_)
    match a with
    | ⟨0, _⟩ => show win1_2.index t (0 : Fin 2) * 2000 + 1 * (y 0).val = win1_5.index t (0 : Fin 2) * 2000 + 1 * (y 0).val; omega
    | ⟨1, _⟩ => show win1_2.index t (1 : Fin 2) * 128 + 1 * k.val = k.val; omega
  · show V c main_v45 (((cfg1.win 3).blk t).view.emb (ix2 (0 : Fin 1) k)) = V c main_v45 _
    refine congrArg (V c main_v45) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_v46 (((cfg1.win 4).blk t).view.emb (ix2 (0 : Fin 1) k)) = V c main_v46 _
    refine congrArg (V c main_v46) (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  · show (y 1).val = win1_5.index t (1 : Fin 2) * 128 + 1 * (y 1).val; omega

/-- The first layer's output array after region 1: layer 1 of every row.  Row `r` lies in the block of point
    `r / 2000`, so the 25 blocks cover the array. -/
theorem final1 (c : Dev nD) : (dat1 V c).arrAt 5 cfg1.N = rows1 V c :=
  (dat1 V c).arrAt_eq_of_cover 5 (rows1 V c) (fun t _ => flushed1 V c t) fun i => by
    have hi0 : (i 0).val < 50000 := (i 0).isLt
    have hi1 : (i 1).val < 128 := (i 1).isLt
    obtain ⟨t, ht⟩ : ∃ t : Fin cfg1.N, t.val = (i 0).val / 2000 :=
      ⟨⟨(i 0).val / 2000, by rw [show cfg1.N = 25 from N_1]; omega⟩, rfl⟩
    obtain ⟨e00, e01, e10, e11, e20, e21, e30, e31, e40, e41, e50, e51⟩ := idx1 t
    refine ⟨t, flush1_5 t, ?_⟩
    show i ∈ ((View.whole main_v47).slice (win1_5.rect t)).set
    rw [View.set_slice_whole, Rect.mem_set_unit]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 128 ≤ (i 1).val ∧ (i 1).val < win1_5.index t (1 : Fin 2) * 128 + 128; omega

end Cert.KernelIdeal.Whole

end
-- ==== Proof.RegionDense2.lean ====
/-
  The second dense region, from blocks to the whole array.

  As for the first dense step: 25 points, point `t` reads rows 2000 t … 2000 t + 1999 of the first layer's output
  and the whole second weight matrix, and writes the same rows of its output; the blocks cover the array.
-/
import proofs.«166512_j2954937500451_1_alg».proof.Proof.Gen.KernelIdeal.Frame
import proofs.«166512_j2954937500451_1_alg».proof.Proof.BlockBodies
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.BlockBodies Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Over the grid: the row block index of the input rows is the output's, every other block index is zero, and
    the row block index is the point's number. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A cell of a dense block is the dense step's cell of the whole array, when the block's row is the array's row
    and the weights are the whole weight matrix. -/
theorem dense_cell2 (x0 : Vec Ideal S2000x128 .f32) (x1 : Vec Ideal S128x128 .f32) (A : Nodes.Idx → EReal) (W : Weights.Idx → EReal)
    (y : S2000x128.Idx) (i : Nodes.Idx)
    (h0 : ∀ k : Fin 128, x0 (ix2 (y 0) k) = A (ix2 (i 0) k))
    (h1 : ∀ k q' : Fin 128, x1 (ix2 k q') = W (ix2 k q'))
    (hq : (y 1).val = (i 1).val) :
    out2_2 (F := Ideal) x0 x1 y = dense A W i := by
  obtain ⟨p, q, rfl⟩ : ∃ (p : Fin 2000) (q : Fin 128), y = ix2 p q := ⟨y 0, y 1, eq_ix2 y⟩
  obtain ⟨r, q2, rfl⟩ : ∃ (r : Fin 50000) (q2 : Fin 128), i = ix2 r q2 := ⟨i 0, i 1, eq_ix2 i⟩
  obtain rfl : q = q2 := Fin.ext hq
  rw [dense_block2]
  unfold dense rowDot rowOf matOf
  exact Finset.sum_congr rfl fun k _ => congrArg₂ (· * ·) (h0 k) (h1 k q)

/-- What point `t` writes back is block `t` of "every row of the array the region finds times the weights". -/
theorem flushed2 (c : Dev nD) (t : Fin cfg2.N) :
    (dat2 V c).flushed 2 t = ((cfg2.win 2).blk t).view.read (Elt Ideal) (dense (V c main_v47) (V c main_arg6)) := by
  show (cfg2.win 2).cut (grid2.coords t) ((dat2 V c).after 2 t) = _
  rw [after2_2]
  obtain ⟨e00, e01, e10, e11, e20, e21⟩ := idx2 t
  funext y
  show out2_2 (iblk2 V c 0 t) (iblk2 V c 1 t) y = dense (V c main_v47) (V c main_arg6) (((cfg2.win 2).blk t).view.emb y)
  refine dense_cell2 _ _ _ _ y _ (fun k => ?_) (fun k q' => ?_) ?_
  · show V c main_v47 (((cfg2.win 0).blk t).view.emb (ix2 (y 0) k)) = V c main_v47 _
    refine congrArg (V c main_v47) (funext fun a => Fin.ext ?_)
    match a with
    | ⟨0, _⟩ => show win2_0.index t (0 : Fin 2) * 2000 + 1 * (y 0).val = win2_2.index t (0 : Fin 2) * 2000 + 1 * (y 0).val; omega
    | ⟨1, _⟩ => show win2_0.index t (1 : Fin 2) * 128 + 1 * k.val = k.val; omega
  · show V c main_arg6 (((cfg2.win 1).blk t).view.emb (ix2 k q')) = V c main_arg6 _
    refine congrArg (V c main_arg6) (funext fun a => Fin.ext ?_)
    match a with
    | ⟨0, _⟩ => show win2_1.index t (0 : Fin 2) * 128 + 1 * k.val = k.val; omega
    | ⟨1, _⟩ => show win2_1.index t (1 : Fin 2) * 128 + 1 * q'.val = q'.val; omega
  · show (y 1).val = win2_2.index t (1 : Fin 2) * 128 + 1 * (y 1).val; omega

/-- The dense step's output array after region 2: every row of the entry features times the weights.  Row `r`
    lies in the block of point `r / 2000`, so the 25 blocks cover the array. -/
theorem final2 (c : Dev nD) : (dat2 V c).arrAt 2 cfg2.N = dense (V c main_v47) (V c main_arg6) :=
  (dat2 V c).arrAt_eq_of_cover 2 (dense (V c main_v47) (V c main_arg6)) (fun t _ => flushed2 V c t) fun i => by
    have hi0 : (i 0).val < 50000 := (i 0).isLt
    have hi1 : (i 1).val < 128 := (i 1).isLt
    obtain ⟨t, ht⟩ : ∃ t : Fin cfg2.N, t.val = (i 0).val / 2000 :=
      ⟨⟨(i 0).val / 2000, by rw [show cfg2.N = 25 from N_2]; omega⟩, rfl⟩
    obtain ⟨e00, e01, e10, e11, e20, e21⟩ := idx2 t
    refine ⟨t, flush2_2 t, ?_⟩
    show i ∈ ((View.whole main_v48).slice (win2_2.rect t)).set
    rw [View.set_slice_whole, Rect.mem_set_unit]
    intro a
    match a with
    | ⟨0, _⟩ => show win2_2.index t (0 : Fin 2) * 2000 ≤ (i 0).val ∧ (i 0).val < win2_2.index t (0 : Fin 2) * 2000 + 2000; omega
    | ⟨1, _⟩ => show win2_2.index t (1 : Fin 2) * 128 ≤ (i 1).val ∧ (i 1).val < win2_2.index t (1 : Fin 2) * 128 + 128; omega

end Cert.KernelIdeal.Whole

end
-- ==== Proof.RegionRows3.lean ====
/-
  The second per-row region, from blocks to the whole array.

  As for the first per-row region, with layer 2 (bias, residual, normalisation, rectifier last): 25 points, point
  `t` reads rows 2000 t … 2000 t + 1999 of the second aggregated array and of the residual and the three one-row
  arrays whole, and writes the same rows of the result; the blocks cover the result.
-/
import proofs.«166512_j2954937500451_1_alg».proof.Proof.Gen.KernelIdeal.Frame
import proofs.«166512_j2954937500451_1_alg».proof.Proof.BlockBodies
import proofs.«166512_j2954937500451_1_alg».proof.Proof.KernelHost
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.BlockBodies Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Over the grid: the aggregated rows, the residual rows and the output rows move together with the point's
    number; the three one-row arrays stay at block zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A cell of a layer-2 block is layer 2 of the whole arrays' row, when the block's rows are the arrays' rows and
    the one-row blocks are the one-row arrays. -/
theorem layer2_cell (x0 : Vec Ideal S2000x128 .f32) (x1 : Vec Ideal S1x128 .f32) (x2 : Vec Ideal S2000x128 .f32) (x3 x4 : Vec Ideal S1x128 .f32)
    (A X : Nodes.Idx → EReal) (b g s : Fin 128 → EReal) (y : S2000x128.Idx) (i : Nodes.Idx)
    (h0 : ∀ k : Fin 128, x0 (ix2 (y 0) k) = A (ix2 (i 0) k))
    (h1 : ∀ k : Fin 128, x1 (ix2 (0 : Fin 1) k) = b k)
    (h2 : ∀ k : Fin 128, x2 (ix2 (y 0) k) = X (ix2 (i 0) k))
    (h3 : ∀ k : Fin 128, x3 (ix2 (0 : Fin 1) k) = g k)
    (h4 : ∀ k : Fin 128, x4 (ix2 (0 : Fin 1) k) = s k)
    (hq : (y 1).val = (i 1).val) :
    out3_5 (F := Ideal) x0 x1 x2 x3 x4 y = layer2 (rowOf A (i 0)) b (rowOf X (i 0)) g s (i 1) := by
  obtain ⟨p, q, rfl⟩ : ∃ (p : Fin 2000) (q : Fin 128), y = ix2 p q := ⟨y 0, y 1, eq_ix2 y⟩
  obtain ⟨r, q2, rfl⟩ : ∃ (r : Fin 50000) (q2 : Fin 128), i = ix2 r q2 := ⟨i 0, i 1, eq_ix2 i⟩
  obtain rfl : q = q2 := Fin.ext hq
  rw [layer2_block]
  have e0 : (fun k => x0 (ix2 p k)) = rowOf A r := funext h0
  have e1 : (fun k => x1 (ix2 (0 : Fin 1) k)) = b := funext h1
  have e2 : (fun k => x2 (ix2 p k)) = rowOf X r := funext h2
  have e3 : (fun k => x3 (ix2 (0 : Fin 1) k)) = g := funext h3
  have e4 : (fun k => x4 (ix2 (0 : Fin 1) k)) = s := funext h4
  rw [e0, e1, e2, e3, e4]

/-- Layer 2 of every row of the arrays region 3 finds. -/
def rows3 (c : Dev nD) : Nodes.Idx → EReal := fun i =>
  layer2 (rowOf (V c main_v61) (i 0)) (oneRow (V c main_v62)) (rowOf (V c main_arg0) (i 0)) (oneRow (V c main_v63)) (oneRow (V c main_v64)) (i 1)

/-- What point `t` writes back is block `t` of "layer 2 of every row" of the arrays the region finds. -/
theorem flushed3 (c : Dev nD) (t : Fin cfg3.N) :
    (dat3 V c).flushed 5 t = ((cfg3.win 5).blk t).view.read (Elt Ideal) (rows3 V c) := by
  show (cfg3.win 5).cut (grid3.coords t) ((dat3 V c).after 5 t) = _
  rw [after3_5]
  obtain ⟨e00, e01, e10, e11, e20, e21, e30, e31, e40, e41, e50, e51⟩ := idx3 t
  funext y
  show out3_5 (iblk3 V c 0 t) (iblk3 V c 1 t) (iblk3 V c 2 t) (iblk3 V c 3 t) (iblk3 V c 4 t) y = rows3 V c (((cfg3.win 5).blk t).view.emb y)
  refine layer2_cell _ _ _ _ _ _ _ _ _ _ y _ (fun k => ?_) (fun k => ?_) (fun k => ?_) (fun k => ?_) (fun k => ?_) ?_
  · show V c main_v61 (((cfg3.win 0).blk t).view.emb (ix2 (y 0) k)) = V c main_v61 _
    refine congrArg (V c main_v61) (funext fun a => Fin.ext ?_)
    match a with
    | ⟨0, _⟩ => show win3_0.index t (0 : Fin 2) * 2000 + 1 * (y 0).val = win3_5.index t (0 : Fin 2) * 2000 + 1 * (y 0).val; omega
    | ⟨1, _⟩ => show win3_0.index t (1 : Fin 2) * 128 + 1 * k.val = k.val; omega
  · show V c main_v62 (((cfg3.win 1).blk t).view.emb (ix2 (0 : Fin 1) k)) = V c main_v62 _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 128 + 1 * k.val = k.val; omega
  · show V c main_arg0 (((cfg3.win 2).blk t).view.emb (ix2 (y 0) k)) = V c main_arg0 _
    refine congrArg (V c main_arg0) (funext fun a => Fin.ext ?_)
    match a with
    | ⟨0, _⟩ => show win3_2.index t (0 : Fin 2) * 2000 + 1 * (y 0).val = win3_5.index t (0 : Fin 2) * 2000 + 1 * (y 0).val; omega
    | ⟨1, _⟩ => show win3_2.index t (1 : Fin 2) * 128 + 1 * k.val = k.val; omega
  · show V c main_v63 (((cfg3.win 3).blk t).view.emb (ix2 (0 : Fin 1) k)) = V c main_v63 _
    refine congrArg (V c main_v63) (funext fun a => Fin.ext ?_)
    match a with
    | ⟨0, _⟩ => show win3_3.index t (0 : Fin 2) * 1 + 1 * 0 = 0; omega
    | ⟨1, _⟩ => show win3_3.index t (1 : Fin 2) * 128 + 1 * k.val = k.val; omega
  · show V c main_v64 (((cfg3.win 4).blk t).view.emb (ix2 (0 : Fin 1) k)) = V c main_v64 _
    refine congrArg (V c main_v64) (funext fun a => Fin.ext ?_)
    match a with
    | ⟨0, _⟩ => show win3_4.index t (0 : Fin 2) * 1 + 1 * 0 = 0; omega
    | ⟨1, _⟩ => show win3_4.index t (1 : Fin 2) * 128 + 1 * k.val = k.val; omega
  · show (y 1).val = win3_5.index t (1 : Fin 2) * 128 + 1 * (y 1).val; omega

/-- The second layer's output array after region 3: layer 2 of every row.  Row `r` lies in the block of point
    `r / 2000`, so the 25 blocks cover the array. -/
theorem final3 (c : Dev nD) : (dat3 V c).arrAt 5 cfg3.N = rows3 V c :=
  (dat3 V c).arrAt_eq_of_cover 5 (rows3 V c) (fun t _ => flushed3 V c t) fun i => by
    have hi0 : (i 0).val < 50000 := (i 0).isLt
    have hi1 : (i 1).val < 128 := (i 1).isLt
    obtain ⟨t, ht⟩ : ∃ t : Fin cfg3.N, t.val = (i 0).val / 2000 :=
      ⟨⟨(i 0).val / 2000, by rw [show cfg3.N = 25 from N_3]; omega⟩, rfl⟩
    obtain ⟨e00, e01, e10, e11, e20, e21, e30, e31, e40, e41, e50, e51⟩ := idx3 t
    refine ⟨t, flush3_5 t, ?_⟩
    show i ∈ ((View.whole main_v65).slice (win3_5.rect t)).set
    rw [View.set_slice_whole, Rect.mem_set_unit]
    intro a
    match a with
    | ⟨0, _⟩ => show win3_5.index t (0 : Fin 2) * 2000 ≤ (i 0).val ∧ (i 0).val < win3_5.index t (0 : Fin 2) * 2000 + 2000; omega
    | ⟨1, _⟩ => show win3_5.index t (1 : Fin 2) * 128 ≤ (i 1).val ∧ (i 1).val < win3_5.index t (1 : Fin 2) * 128 + 128; omega

end Cert.KernelIdeal.Whole

end
-- ==== Proof.KernelChain.lean ====
/-
  The idealized kernel's result as the network of its arguments.

  The fold through the program is read boundary by boundary, at the buffers that are still needed: the edge
  endpoints and weights (computed once, before the first region, and never written again), the float arguments
  (never written), and the array each region or stretch has just produced.  A host stretch is read by its lemmas;
  a region replaces its output array by the whole-array function its blocks cover and leaves every buffer that
  is not one of its arrays alone; an input array of a region keeps its entry contents.  At the end the result
  buffer holds layer 2 of the second propagation of layer 1 of the first propagation of the features.
-/
import proofs.«166512_j2954937500451_1_alg».proof.Proof.KernelHost
import proofs.«166512_j2954937500451_1_alg».proof.Proof.RegionDense0
import proofs.«166512_j2954937500451_1_alg».proof.Proof.RegionRows1
import proofs.«166512_j2954937500451_1_alg».proof.Proof.RegionDense2
import proofs.«166512_j2954937500451_1_alg».proof.Proof.RegionRows3

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The source endpoints of the launch edge table. -/
abbrev src : (⟨S850000, .i32⟩ : BufTy).Contents (Elt Ideal) := sources (m ((c : Thread nD τ).loc main_arg1))
/-- The target endpoints of the launch edge table. -/
abbrev tgt : (⟨S850000, .i32⟩ : BufTy).Contents (Elt Ideal) := targets (m ((c : Thread nD τ).loc main_arg1))
/-- The edge weights of the launch edge table. -/
abbrev wgt : (⟨S850000, .f32⟩ : BufTy).Contents (Elt Ideal) := edgeWeight (src m c) (tgt m c)

/-- The first propagation of the features. -/
abbrev agg1 : Nodes.Idx → EReal := aggregate (F := Ideal) (src m c) (tgt m c) (wgt m c) (dense (m ((c : Thread nD τ).loc main_arg0)) (m ((c : Thread nD τ).loc main_arg2)))
/-- Layer 1 of the first propagation. -/
abbrev hid1 : Nodes.Idx → EReal := post1 (agg1 m c) (m ((c : Thread nD τ).loc main_arg3)) (m ((c : Thread nD τ).loc main_arg0)) (m ((c : Thread nD τ).loc main_arg4)) (m ((c : Thread nD τ).loc main_arg5))
/-- The second propagation, of layer 1's output. -/
abbrev agg2 : Nodes.Idx → EReal := aggregate (F := Ideal) (src m c) (tgt m c) (wgt m c) (dense (hid1 m c) (m ((c : Thread nD τ).loc main_arg6)))

/-! ## The per-row regions at named entry contents -/

section Congruence
variable (V : (c : Dev nD) → (b : Ref sig .tc) → Buf (Elt Ideal) ((c : Thread nD τ).loc b))

/-- Layer 1 of every row of the arrays region 1 finds, once those arrays are named: the aggregated array, the
    residual, and the three vectors laid out as one-row arrays. -/
theorem rows1_named (A X : Nodes.Idx → EReal) (b g s : Feat.Idx → EReal)
    (hA : V c main_v43 = A) (hb : V c main_v44 = asRow b) (hX : V c main_arg0 = X)
    (hg : V c main_v45 = asRow g) (hs : V c main_v46 = asRow s) : rows1 V c = post1 A b X g s := by
  unfold rows1
  rw [hA, hb, hX, hg, hs, oneRow_asRow, oneRow_asRow, oneRow_asRow]
  rfl

/-- Layer 2 of every row of the arrays region 3 finds, once those arrays are named. -/
theorem rows3_named (A X : Nodes.Idx → EReal) (b g s : Feat.Idx → EReal)
    (hA : V c main_v61 = A) (hb : V c main_v62 = asRow b) (hX : V c main_arg0 = X)
    (hg : V c main_v63 = asRow g) (hs : V c main_v64 = asRow s) : rows3 V c = post2 A b X g s := by
  unfold rows3
  rw [hA, hb, hX, hg, hs, oneRow_asRow, oneRow_asRow, oneRow_asRow]
  rfl

end Congruence

/-! ## The first region's entry -/

theorem at3_src : W3 m ρ c (main_v3 : DevRef τ sig) = src m c := prelude_sources (W0 m ρ c)
theorem at3_tgt : W3 m ρ c (main_v6 : DevRef τ sig) = tgt m c := prelude_targets (W0 m ρ c)
theorem at3_wgt : W3 m ρ c (main_v29 : DevRef τ sig) = wgt m c := prelude_weights (W0 m ρ c)
theorem at3_arg0 : W3 m ρ c (main_arg0 : DevRef τ sig) = m ((c : Thread nD τ).loc main_arg0) := (prelude_keeps (W0 m ρ c)).1
theorem at3_arg2 : W3 m ρ c (main_arg2 : DevRef τ sig) = m ((c : Thread nD τ).loc main_arg2) := (prelude_keeps (W0 m ρ c)).2.1
theorem at3_arg3 : W3 m ρ c (main_arg3 : DevRef τ sig) = m ((c : Thread nD τ).loc main_arg3) := (prelude_keeps (W0 m ρ c)).2.2.1
theorem at3_arg4 : W3 m ρ c (main_arg4 : DevRef τ sig) = m ((c : Thread nD τ).loc main_arg4) := (prelude_keeps (W0 m ρ c)).2.2.2.1
theorem at3_arg5 : W3 m ρ c (main_arg5 : DevRef τ sig) = m ((c : Thread nD τ).loc main_arg5) := (prelude_keeps (W0 m ρ c)).2.2.2.2.1
theorem at3_arg6 : W3 m ρ c (main_arg6 : DevRef τ sig) = m ((c : Thread nD τ).loc main_arg6) := (prelude_keeps (W0 m ρ c)).2.2.2.2.2.1
theorem at3_arg7 : W3 m ρ c (main_arg7 : DevRef τ sig) = m ((c : Thread nD τ).loc main_arg7) := (prelude_keeps (W0 m ρ c)).2.2.2.2.2.2.1
theorem at3_arg8 : W3 m ρ c (main_arg8 : DevRef τ sig) = m ((c : Thread nD τ).loc main_arg8) := (prelude_keeps (W0 m ρ c)).2.2.2.2.2.2.2.1
theorem at3_arg9 : W3 m ρ c (main_arg9 : DevRef τ sig) = m ((c : Thread nD τ).loc main_arg9) := (prelude_keeps (W0 m ρ c)).2.2.2.2.2.2.2.2

/-! ## The first region's exit: the dense step of the features -/

theorem at4_src : W4 m ρ c (main_v3 : DevRef τ sig) = src m c := (W4_of_ne m ρ c main_v3 (by decide)).trans (at3_src m ρ c)
theorem at4_tgt : W4 m ρ c (main_v6 : DevRef τ sig) = tgt m c := (W4_of_ne m ρ c main_v6 (by decide)).trans (at3_tgt m ρ c)
theorem at4_wgt : W4 m ρ c (main_v29 : DevRef τ sig) = wgt m c := (W4_of_ne m ρ c main_v29 (by decide)).trans (at3_wgt m ρ c)
theorem at4_arg0 : W4 m ρ c (main_arg0 : DevRef τ sig) = m ((c : Thread nD τ).loc main_arg0) :=
  ((W4_arr m ρ c 0).trans (((dat0 (V3 m ρ) c).arrAt_in 0 rfl _).trans (A_eq0 (V3 m ρ) c 0))).trans (at3_arg0 m ρ c)
theorem at4_arg3 : W4 m ρ c (main_arg3 : DevRef τ sig) = m ((c : Thread nD τ).loc main_arg3) := (W4_of_ne m ρ c main_arg3 (by decide)).trans (at3_arg3 m ρ c)
theorem at4_arg4 : W4 m ρ c (main_arg4 : DevRef τ sig) = m ((c : Thread nD τ).loc main_arg4) := (W4_of_ne m ρ c main_arg4 (by decide)).trans (at3_arg4 m ρ c)
theorem at4_arg5 : W4 m ρ c (main_arg5 : DevRef τ sig) = m ((c : Thread nD τ).loc main_arg5) := (W4_of_ne m ρ c main_arg5 (by decide)).trans (at3_arg5 m ρ c)
theorem at4_arg6 : W4 m ρ c (main_arg6 : DevRef τ sig) = m ((c : Thread nD τ).loc main_arg6) := (W4_of_ne m ρ c main_arg6 (by decide)).trans (at3_arg6 m ρ c)
theorem at4_arg7 : W4 m ρ c (main_arg7 : DevRef τ sig) = m ((c : Thread nD τ).loc main_arg7) := (W4_of_ne m ρ c main_arg7 (by decide)).trans (at3_arg7 m ρ c)
theorem at4_arg8 : W4 m ρ c (main_arg8 : DevRef τ sig) = m ((c : Thread nD τ).loc main_arg8) := (W4_of_ne m ρ c main_arg8 (by decide)).trans (at3_arg8 m ρ c)
theorem at4_arg9 : W4 m ρ c (main_arg9 : DevRef τ sig) = m ((c : Thread nD τ).loc main_arg9) := (W4_of_ne m ρ c main_arg9 (by decide)).trans (at3_arg9 m ρ c)
/-- The first dense step's output: every row of the features times the first weight matrix. -/
theorem at4_dense : W4 m ρ c (main_v30 : DevRef τ sig) = dense (m ((c : Thread nD τ).loc main_arg0)) (m ((c : Thread nD τ).loc main_arg2)) := by
  refine ((W4_arr m ρ c 2).trans (final0 (V3 m ρ) c)).trans ?_
  show dense (W3 m ρ c (main_arg0 : DevRef τ sig)) (W3 m ρ c (main_arg2 : DevRef τ sig)) = _
  rw [at3_arg0, at3_arg2]

/-! ## The second region's entry: aggregation, and the first layer's one-row arrays -/

theorem at5_agg : W5 m ρ c (main_v43 : DevRef τ sig) = agg1 m c := by
  refine (stretch1_aggregate (W4 m ρ c)).trans ?_
  rw [at4_src, at4_tgt, at4_wgt, at4_dense]
theorem at5_bias : W5 m ρ c (main_v44 : DevRef τ sig) = asRow (m ((c : Thread nD τ).loc main_arg3)) := by
  refine (stretch1_rows (W4 m ρ c)).1.trans ?_; rw [at4_arg3]
theorem at5_scale : W5 m ρ c (main_v45 : DevRef τ sig) = asRow (m ((c : Thread nD τ).loc main_arg4)) := by
  refine (stretch1_rows (W4 m ρ c)).2.1.trans ?_; rw [at4_arg4]
theorem at5_shift : W5 m ρ c (main_v46 : DevRef τ sig) = asRow (m ((c : Thread nD τ).loc main_arg5)) := by
  refine (stretch1_rows (W4 m ρ c)).2.2.trans ?_; rw [at4_arg5]
theorem at5_arg0 : W5 m ρ c (main_arg0 : DevRef τ sig) = m ((c : Thread nD τ).loc main_arg0) := (stretch1_keeps (W4 m ρ c)).1.trans (at4_arg0 m ρ c)
theorem at5_arg6 : W5 m ρ c (main_arg6 : DevRef τ sig) = m ((c : Thread nD τ).loc main_arg6) := (stretch1_keeps (W4 m ρ c)).2.1.trans (at4_arg6 m ρ c)
theorem at5_arg7 : W5 m ρ c (main_arg7 : DevRef τ sig) = m ((c : Thread nD τ).loc main_arg7) := (stretch1_keeps (W4 m ρ c)).2.2.1.trans (at4_arg7 m ρ c)
theorem at5_arg8 : W5 m ρ c (main_arg8 : DevRef τ sig) = m ((c : Thread nD τ).loc main_arg8) := (stretch1_keeps (W4 m ρ c)).2.2.2.1.trans (at4_arg8 m ρ c)
theorem at5_arg9 : W5 m ρ c (main_arg9 : DevRef τ sig) = m ((c : Thread nD τ).loc main_arg9) := (stretch1_keeps (W4 m ρ c)).2.2.2.2.1.trans (at4_arg9 m ρ c)
theorem at5_src : W5 m ρ c (main_v3 : DevRef τ sig) = src m c := (stretch1_keeps (W4 m ρ c)).2.2.2.2.2.1.trans (at4_src m ρ c)
theorem at5_tgt : W5 m ρ c (main_v6 : DevRef τ sig) = tgt m c := (stretch1_keeps (W4 m ρ c)).2.2.2.2.2.2.1.trans (at4_tgt m ρ c)
theorem at5_wgt : W5 m ρ c (main_v29 : DevRef τ sig) = wgt m c := (stretch1_keeps (W4 m ρ c)).2.2.2.2.2.2.2.trans (at4_wgt m ρ c)

/-! ## The second region's exit: layer 1 -/

/-- The first layer's output: layer 1 of every row of the first propagation, with the features as residual. -/
theorem at6_layer : W6 m ρ c (main_v47 : DevRef τ sig) = hid1 m c :=
  ((W6_arr m ρ c 5).trans (final1 (V5 m ρ) c)).trans
    (rows1_named c (V5 m ρ) _ _ _ _ _ (at5_agg m ρ c) (at5_bias m ρ c) (at5_arg0 m ρ c) (at5_scale m ρ c) (at5_shift m ρ c))
theorem at6_arg0 : W6 m ρ c (main_arg0 : DevRef τ sig) = m ((c : Thread nD τ).loc main_arg0) :=
  ((W6_arr m ρ c 2).trans (((dat1 (V5 m ρ) c).arrAt_in 2 rfl _).trans (A_eq1 (V5 m ρ) c 2))).trans (at5_arg0 m ρ c)
theorem at6_arg6 : W6 m ρ c (main_arg6 : DevRef τ sig) = m ((c : Thread nD τ).loc main_arg6) := (W6_of_ne m ρ c main_arg6 (by decide)).trans (at5_arg6 m ρ c)
theorem at6_arg7 : W6 m ρ c (main_arg7 : DevRef τ sig) = m ((c : Thread nD τ).loc main_arg7) := (W6_of_ne m ρ c main_arg7 (by decide)).trans (at5_arg7 m ρ c)
theorem at6_arg8 : W6 m ρ c (main_arg8 : DevRef τ sig) = m ((c : Thread nD τ).loc main_arg8) := (W6_of_ne m ρ c main_arg8 (by decide)).trans (at5_arg8 m ρ c)
theorem at6_arg9 : W6 m ρ c (main_arg9 : DevRef τ sig) = m ((c : Thread nD τ).loc main_arg9) := (W6_of_ne m ρ c main_arg9 (by decide)).trans (at5_arg9 m ρ c)
theorem at6_src : W6 m ρ c (main_v3 : DevRef τ sig) = src m c := (W6_of_ne m ρ c main_v3 (by decide)).trans (at5_src m ρ c)
theorem at6_tgt : W6 m ρ c (main_v6 : DevRef τ sig) = tgt m c := (W6_of_ne m ρ c main_v6 (by decide)).trans (at5_tgt m ρ c)
theorem at6_wgt : W6 m ρ c (main_v29 : DevRef τ sig) = wgt m c := (W6_of_ne m ρ c main_v29 (by decide)).trans (at5_wgt m ρ c)

/-! ## The third region's exit: the dense step of layer 1's output -/

theorem at7_dense : W7 m ρ c (main_v48 : DevRef τ sig) = dense (hid1 m c) (m ((c : Thread nD τ).loc main_arg6)) := by
  refine ((W7_arr m ρ c 2).trans (final2 (V6 m ρ) c)).trans ?_
  show dense (W6 m ρ c (main_v47 : DevRef τ sig)) (W6 m ρ c (main_arg6 : DevRef τ sig)) = _
  rw [at6_layer, at6_arg6]
theorem at7_arg0 : W7 m ρ c (main_arg0 : DevRef τ sig) = m ((c : Thread nD τ).loc main_arg0) := (W7_of_ne m ρ c main_arg0 (by decide)).trans (at6_arg0 m ρ c)
theorem at7_arg7 : W7 m ρ c (main_arg7 : DevRef τ sig) = m ((c : Thread nD τ).loc main_arg7) := (W7_of_ne m ρ c main_arg7 (by decide)).trans (at6_arg7 m ρ c)
theorem at7_arg8 : W7 m ρ c (main_arg8 : DevRef τ sig) = m ((c : Thread nD τ).loc main_arg8) := (W7_of_ne m ρ c main_arg8 (by decide)).trans (at6_arg8 m ρ c)
theorem at7_arg9 : W7 m ρ c (main_arg9 : DevRef τ sig) = m ((c : Thread nD τ).loc main_arg9) := (W7_of_ne m ρ c main_arg9 (by decide)).trans (at6_arg9 m ρ c)
theorem at7_src : W7 m ρ c (main_v3 : DevRef τ sig) = src m c := (W7_of_ne m ρ c main_v3 (by decide)).trans (at6_src m ρ c)
theorem at7_tgt : W7 m ρ c (main_v6 : DevRef τ sig) = tgt m c := (W7_of_ne m ρ c main_v6 (by decide)).trans (at6_tgt m ρ c)
theorem at7_wgt : W7 m ρ c (main_v29 : DevRef τ sig) = wgt m c := (W7_of_ne m ρ c main_v29 (by decide)).trans (at6_wgt m ρ c)

/-! ## The fourth region's entry: the second aggregation, and the second layer's one-row arrays -/

theorem at8_agg : W8 m ρ c (main_v61 : DevRef τ sig) = agg2 m c := by
  refine (stretch3_aggregate (W7 m ρ c)).trans ?_
  rw [at7_src, at7_tgt, at7_wgt, at7_dense]
theorem at8_bias : W8 m ρ c (main_v62 : DevRef τ sig) = asRow (m ((c : Thread nD τ).loc main_arg7)) := by
  refine (stretch3_rows (W7 m ρ c)).1.trans ?_; rw [at7_arg7]
theorem at8_scale : W8 m ρ c (main_v63 : DevRef τ sig) = asRow (m ((c : Thread nD τ).loc main_arg8)) := by
  refine (stretch3_rows (W7 m ρ c)).2.1.trans ?_; rw [at7_arg8]
theorem at8_shift : W8 m ρ c (main_v64 : DevRef τ sig) = asRow (m ((c : Thread nD τ).loc main_arg9)) := by
  refine (stretch3_rows (W7 m ρ c)).2.2.trans ?_; rw [at7_arg9]
theorem at8_arg0 : W8 m ρ c (main_arg0 : DevRef τ sig) = m ((c : Thread nD τ).loc main_arg0) := (stretch3_keeps (W7 m ρ c)).trans (at7_arg0 m ρ c)

/-! ## The result -/

/-- The result buffer after the run: the network of the launch arguments. -/
theorem result_eq : W9 m ρ c (Proc.devRef .tc main_v65)
    = network (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) := by
  exact ((W9_arr m ρ c 5).trans (final3 (V8 m ρ) c)).trans
    (rows3_named c (V8 m ρ) _ _ _ _ _ (at8_agg m ρ c) (at8_bias m ρ c) (at8_arg0 m ρ c) (at8_scale m ρ c) (at8_shift m ρ c))

end Cert.KernelIdeal.Whole

end
-- ==== Proof.ReferenceOps.lean ====
/-
  The reference program as a straight line of host operations.

  The program's entry function is three windows of statements; four of them are calls of small outlined
  functions (a select against a broadcast scalar, twice; the leaky rectifier, twice, which itself calls a
  three-way select).  Here every call is replaced by the callee's operations over that call's own buffers,
  so the whole program is one list of 189 operations, cut into eleven consecutive pieces at the joints of
  the computation: the endpoint lists, the first dense step, the edge weights, the first aggregation, the
  first layer (bias and rectifier; residual and row normalisation), the second dense step, the edge weights
  again (in two pieces), the second aggregation, the second layer.

  Running the program from any memory ends with every buffer at the fold of the operations' results over the
  launch contents.
-/
import proofs.«166512_j2954937500451_1_alg».proof.Proof.Gen.ReferenceIdeal
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]
/-- The endpoint lists: each row of the edge table followed by every node's own number. -/
abbrev L0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The first dense step. -/
abbrev L1 : List (HloOp τ sig (Elt F)) :=
  [ StableHlo.binary main_arg0 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Degrees, their reciprocal square roots, and the edge weights. -/
abbrev L2 : List (HloOp τ sig (Elt F)) :=
  [ StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v6 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v13) (.of main_v14) main_call0.v1 main_call0.v2 select,
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v3 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v3 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v6 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v6 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)) ]

/-- The first aggregation along the edges. -/
abbrev L3 : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v7 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v30 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The first layer's bias and leaky rectifier. -/
abbrev L4a : List (HloOp τ sig (Elt F)) :=
  [ StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v46) main_call1.v0 main_call1.v1 (cmpf .oge),
    StableHlo.TRef.unary (.of main_cst_9) main_call1.v2 id,
    StableHlo.TRef.unary main_call1.v2 main_call1.v3 (broadcastInDim S50000x128 ![] bcast_S_S50000x128),
    StableHlo.TRef.binary main_call1.v3 (.of main_v46) main_call1.v4 mulf,
    StableHlo.TRef.ternary main_call1.v1 (.of main_v46) main_call1.v4 main_call1.call0.v0 select ]

/-- The first layer's residual and row normalisation. -/
abbrev L4b : List (HloOp τ sig (Elt F)) :=
  [ StableHlo.binary main_v47 main_arg0 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.binary main_v48 main_cst_10 main_v49 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v49 main_v50 (broadcastInDim S50000x1 ![0] bcast_S50000_S50000x1_0 : (⟨S50000, .f32⟩ : BufTy).Contents (Elt F) → (⟨S50000x1, .f32⟩ : BufTy).Contents (Elt F)),
    StableHlo.nullary main_cst_11 (constant S_ .f32 0x43000000#32),
    StableHlo.unary main_cst_11 main_v51 (broadcastInDim S50000x1 ![] bcast_S_S50000x1 : (⟨S_, .f32⟩ : BufTy).Contents (Elt F) → (⟨S50000x1, .f32⟩ : BufTy).Contents (Elt F)),
    StableHlo.binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    StableHlo.unary main_v52 main_v53 (broadcastInDim S50000x128 ![0, 1] bcast_S50000x1_S50000x128_0_1 : (⟨S50000x1, .f32⟩ : BufTy).Contents (Elt F) → (⟨S50000x128, .f32⟩ : BufTy).Contents (Elt F)),
    StableHlo.binary main_v48 main_v53 main_v54 (subf : (⟨S50000x128, .f32⟩ : BufTy).Contents (Elt F) → (⟨S50000x128, .f32⟩ : BufTy).Contents (Elt F) → (⟨S50000x128, .f32⟩ : BufTy).Contents (Elt F)),
    StableHlo.binary main_v54 main_v54 main_v55 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.binary main_v55 main_cst_12 main_v56 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v56 main_v57 (broadcastInDim S50000x1 ![0] bcast_S50000_S50000x1_0 : (⟨S50000, .f32⟩ : BufTy).Contents (Elt F) → (⟨S50000x1, .f32⟩ : BufTy).Contents (Elt F)),
    StableHlo.nullary main_cst_13 (constant S_ .f32 0x43000000#32),
    StableHlo.unary main_cst_13 main_v58 (broadcastInDim S50000x1 ![] bcast_S_S50000x1 : (⟨S_, .f32⟩ : BufTy).Contents (Elt F) → (⟨S50000x1, .f32⟩ : BufTy).Contents (Elt F)),
    StableHlo.binary main_v57 main_v58 main_v59 (Host.divf : (⟨S50000x1, .f32⟩ : BufTy).Contents (Elt F) → (⟨S50000x1, .f32⟩ : BufTy).Contents (Elt F) → (⟨S50000x1, .f32⟩ : BufTy).Contents (Elt F)),
    StableHlo.unary main_v52 main_v60 (broadcastInDim S50000x128 ![0, 1] bcast_S50000x1_S50000x128_0_1 : (⟨S50000x1, .f32⟩ : BufTy).Contents (Elt F) → (⟨S50000x128, .f32⟩ : BufTy).Contents (Elt F)),
    StableHlo.binary main_v48 main_v60 main_v61 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v62 (broadcastInDim S50000x1 ![] bcast_S_S50000x1 : (⟨S_, .f32⟩ : BufTy).Contents (Elt F) → (⟨S50000x1, .f32⟩ : BufTy).Contents (Elt F)),
    StableHlo.binary main_v59 main_v62 main_v63 (addf : (⟨S50000x1, .f32⟩ : BufTy).Contents (Elt F) → (⟨S50000x1, .f32⟩ : BufTy).Contents (Elt F) → (⟨S50000x1, .f32⟩ : BufTy).Contents (Elt F)),
    StableHlo.unary main_v63 main_v64 (Host.rsqrt : (⟨S50000x1, .f32⟩ : BufTy).Contents (Elt F) → (⟨S50000x1, .f32⟩ : BufTy).Contents (Elt F)),
    StableHlo.unary main_v64 main_v65 (broadcastInDim S50000x128 ![0, 1] bcast_S50000x1_S50000x128_0_1 : (⟨S50000x1, .f32⟩ : BufTy).Contents (Elt F) → (⟨S50000x128, .f32⟩ : BufTy).Contents (Elt F)),
    StableHlo.binary main_v61 main_v65 main_v66 (mulf : (⟨S50000x128, .f32⟩ : BufTy).Contents (Elt F) → (⟨S50000x128, .f32⟩ : BufTy).Contents (Elt F) → (⟨S50000x128, .f32⟩ : BufTy).Contents (Elt F)),
    StableHlo.unary main_arg4 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v68 main_v69 (mulf : (⟨S50000x128, .f32⟩ : BufTy).Contents (Elt F) → (⟨S50000x128, .f32⟩ : BufTy).Contents (Elt F) → (⟨S50000x128, .f32⟩ : BufTy).Contents (Elt F)),
    StableHlo.unary main_arg5 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)) ]

/-- The second dense step. -/
abbrev L5 : List (HloOp τ sig (Elt F)) :=
  [ StableHlo.binary main_v72 main_arg6 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Degrees and reciprocal square roots again, gathered at the sources, and the targets' positions. -/
abbrev L6a : List (HloOp τ sig (Elt F)) :=
  [ StableHlo.nullary main_cst_15 (constant S_ .f32 0x3F800000#32),
    StableHlo.unary main_cst_15 main_v74 (broadcastInDim S850000 ![] bcast_S_S850000 : (⟨S_, .f32⟩ : BufTy).Contents (Elt F) → (⟨S850000, .f32⟩ : BufTy).Contents (Elt F)),
    StableHlo.nullary main_cst_16 (constant S_ .f32 0x00000000#32),
    StableHlo.unary main_cst_16 main_v75 (broadcastInDim S50000 ![] bcast_S_S50000 : (⟨S_, .f32⟩ : BufTy).Contents (Elt F) → (⟨S50000, .f32⟩ : BufTy).Contents (Elt F)),
    StableHlo.unary main_v6 main_v76 (broadcastInDim S850000x1 ![0] bcast_S850000_S850000x1_0 : (⟨S850000, .i32⟩ : BufTy).Contents (Elt F) → (⟨S850000x1, .i32⟩ : BufTy).Contents (Elt F)),
    StableHlo.ternary main_v75 main_v76 main_v74 main_v77 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_17 (constant S_ .f32 0x00000000#32),
    StableHlo.unary main_cst_17 main_v78 (broadcastInDim S50000 ![] bcast_S_S50000 : (⟨S_, .f32⟩ : BufTy).Contents (Elt F) → (⟨S50000, .f32⟩ : BufTy).Contents (Elt F)),
    StableHlo.binary main_v77 main_v78 main_v79 (cmpf .ogt : (⟨S50000, .f32⟩ : BufTy).Contents (Elt F) → (⟨S50000, .f32⟩ : BufTy).Contents (Elt F) → (⟨S50000, .i1⟩ : BufTy).Contents (Elt F)),
    StableHlo.unary main_v77 main_v80 (Host.rsqrt : (⟨S50000, .f32⟩ : BufTy).Contents (Elt F) → (⟨S50000, .f32⟩ : BufTy).Contents (Elt F)),
    StableHlo.nullary main_cst_18 (constant S_ .f32 0x00000000#32),
    StableHlo.TRef.unary (.of main_cst_18) main_call2.v0 id,
    StableHlo.TRef.unary main_call2.v0 main_call2.v1 (broadcastInDim S50000 ![] bcast_S_S50000),
    StableHlo.TRef.ternary (.of main_v79) (.of main_v80) main_call2.v1 main_call2.v2 select,
    StableHlo.nullary main_c_19 (constantI S_ 32 0#32),
    StableHlo.unary main_c_19 main_v82 (broadcastInDim S850000 ![] bcast_S_S850000 : (⟨S_, .i32⟩ : BufTy).Contents (Elt F) → (⟨S850000, .i32⟩ : BufTy).Contents (Elt F)),
    StableHlo.binary main_v3 main_v82 main_v83 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v84 (broadcastInDim S850000 ![] bcast_S_S850000 : (⟨S_, .i32⟩ : BufTy).Contents (Elt F) → (⟨S850000, .i32⟩ : BufTy).Contents (Elt F)),
    StableHlo.binary main_v3 main_v84 main_v85 (addi : (⟨S850000, .i32⟩ : BufTy).Contents (Elt F) → (⟨S850000, .i32⟩ : BufTy).Contents (Elt F) → (⟨S850000, .i32⟩ : BufTy).Contents (Elt F)),
    StableHlo.ternary main_v83 main_v85 main_v3 main_v86 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v86 main_v87 (broadcastInDim S850000x1 ![0] bcast_S850000_S850000x1_0 : (⟨S850000, .i32⟩ : BufTy).Contents (Elt F) → (⟨S850000x1, .i32⟩ : BufTy).Contents (Elt F)),
    StableHlo.binary main_v81 main_v87 main_v88 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_21 (constantI S_ 32 0#32),
    StableHlo.unary main_c_21 main_v89 (broadcastInDim S850000 ![] bcast_S_S850000 : (⟨S_, .i32⟩ : BufTy).Contents (Elt F) → (⟨S850000, .i32⟩ : BufTy).Contents (Elt F)),
    StableHlo.binary main_v6 main_v89 main_v90 (cmpi .slt : (⟨S850000, .i32⟩ : BufTy).Contents (Elt F) → (⟨S850000, .i32⟩ : BufTy).Contents (Elt F) → (⟨S850000, .i1⟩ : BufTy).Contents (Elt F)),
    StableHlo.nullary main_c_22 (constantI S_ 32 50000#32),
    StableHlo.unary main_c_22 main_v91 (broadcastInDim S850000 ![] bcast_S_S850000 : (⟨S_, .i32⟩ : BufTy).Contents (Elt F) → (⟨S850000, .i32⟩ : BufTy).Contents (Elt F)),
    StableHlo.binary main_v6 main_v91 main_v92 (addi : (⟨S850000, .i32⟩ : BufTy).Contents (Elt F) → (⟨S850000, .i32⟩ : BufTy).Contents (Elt F) → (⟨S850000, .i32⟩ : BufTy).Contents (Elt F)),
    StableHlo.ternary main_v90 main_v92 main_v6 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v93 main_v94 (broadcastInDim S850000x1 ![0] bcast_S850000_S850000x1_0 : (⟨S850000, .i32⟩ : BufTy).Contents (Elt F) → (⟨S850000x1, .i32⟩ : BufTy).Contents (Elt F)) ]

/-- The edge weights again. -/
abbrev L6b : List (HloOp τ sig (Elt F)) :=
  [ StableHlo.binary main_v81 main_v94 main_v95 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v88 main_v95 main_v96 (mulf : (⟨S850000, .f32⟩ : BufTy).Contents (Elt F) → (⟨S850000, .f32⟩ : BufTy).Contents (Elt F) → (⟨S850000, .f32⟩ : BufTy).Contents (Elt F)) ]

/-- The second aggregation along the edges. -/
abbrev L7 : List (HloOp τ sig (Elt F)) :=
  [ StableHlo.nullary main_c_23 (constantI S_ 32 0#32),
    StableHlo.unary main_c_23 main_v97 (broadcastInDim S850000 ![] bcast_S_S850000 : (⟨S_, .i32⟩ : BufTy).Contents (Elt F) → (⟨S850000, .i32⟩ : BufTy).Contents (Elt F)),
    StableHlo.binary main_v3 main_v97 main_v98 (cmpi .slt : (⟨S850000, .i32⟩ : BufTy).Contents (Elt F) → (⟨S850000, .i32⟩ : BufTy).Contents (Elt F) → (⟨S850000, .i1⟩ : BufTy).Contents (Elt F)),
    StableHlo.nullary main_c_24 (constantI S_ 32 50000#32),
    StableHlo.unary main_c_24 main_v99 (broadcastInDim S850000 ![] bcast_S_S850000 : (⟨S_, .i32⟩ : BufTy).Contents (Elt F) → (⟨S850000, .i32⟩ : BufTy).Contents (Elt F)),
    StableHlo.binary main_v3 main_v99 main_v100 (addi : (⟨S850000, .i32⟩ : BufTy).Contents (Elt F) → (⟨S850000, .i32⟩ : BufTy).Contents (Elt F) → (⟨S850000, .i32⟩ : BufTy).Contents (Elt F)),
    StableHlo.ternary main_v98 main_v100 main_v3 main_v101 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v101 main_v102 (broadcastInDim S850000x1 ![0] bcast_S850000_S850000x1_0 : (⟨S850000, .i32⟩ : BufTy).Contents (Elt F) → (⟨S850000x1, .i32⟩ : BufTy).Contents (Elt F)),
    StableHlo.binary main_v73 main_v102 main_v103 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v96 main_v104 (broadcastInDim S850000x1 ![0] bcast_S850000_S850000x1_0 : (⟨S850000, .f32⟩ : BufTy).Contents (Elt F) → (⟨S850000x1, .f32⟩ : BufTy).Contents (Elt F)),
    StableHlo.unary main_v104 main_v105 (broadcastInDim S850000x128 ![0, 1] bcast_S850000x1_S850000x128_0_1 : (⟨S850000x1, .f32⟩ : BufTy).Contents (Elt F) → (⟨S850000x128, .f32⟩ : BufTy).Contents (Elt F)),
    StableHlo.binary main_v103 main_v105 main_v106 (mulf : (⟨S850000x128, .f32⟩ : BufTy).Contents (Elt F) → (⟨S850000x128, .f32⟩ : BufTy).Contents (Elt F) → (⟨S850000x128, .f32⟩ : BufTy).Contents (Elt F)),
    StableHlo.nullary main_cst_25 (constant S_ .f32 0x00000000#32),
    StableHlo.unary main_cst_25 main_v107 (broadcastInDim S50000x128 ![] bcast_S_S50000x128 : (⟨S_, .f32⟩ : BufTy).Contents (Elt F) → (⟨S50000x128, .f32⟩ : BufTy).Contents (Elt F)),
    StableHlo.unary main_v6 main_v108 (broadcastInDim S850000x1 ![0] bcast_S850000_S850000x1_0 : (⟨S850000, .i32⟩ : BufTy).Contents (Elt F) → (⟨S850000x1, .i32⟩ : BufTy).Contents (Elt F)),
    StableHlo.ternary main_v107 main_v108 main_v106 main_v109 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The second layer: bias, residual, row normalisation, leaky rectifier. -/
abbrev L8 : List (HloOp τ sig (Elt F)) :=
  [ StableHlo.unary main_arg7 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v111 main_v112 (addf : (⟨S50000x128, .f32⟩ : BufTy).Contents (Elt F) → (⟨S50000x128, .f32⟩ : BufTy).Contents (Elt F) → (⟨S50000x128, .f32⟩ : BufTy).Contents (Elt F)),
    StableHlo.binary main_v112 main_arg0 main_v113 (addf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x00000000#32),
    StableHlo.binary main_v113 main_cst_26 main_v114 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v114 main_v115 (broadcastInDim S50000x1 ![0] bcast_S50000_S50000x1_0 : (⟨S50000, .f32⟩ : BufTy).Contents (Elt F) → (⟨S50000x1, .f32⟩ : BufTy).Contents (Elt F)),
    StableHlo.nullary main_cst_27 (constant S_ .f32 0x43000000#32),
    StableHlo.unary main_cst_27 main_v116 (broadcastInDim S50000x1 ![] bcast_S_S50000x1 : (⟨S_, .f32⟩ : BufTy).Contents (Elt F) → (⟨S50000x1, .f32⟩ : BufTy).Contents (Elt F)),
    StableHlo.binary main_v115 main_v116 main_v117 (Host.divf : (⟨S50000x1, .f32⟩ : BufTy).Contents (Elt F) → (⟨S50000x1, .f32⟩ : BufTy).Contents (Elt F) → (⟨S50000x1, .f32⟩ : BufTy).Contents (Elt F)),
    StableHlo.unary main_v117 main_v118 (broadcastInDim S50000x128 ![0, 1] bcast_S50000x1_S50000x128_0_1 : (⟨S50000x1, .f32⟩ : BufTy).Contents (Elt F) → (⟨S50000x128, .f32⟩ : BufTy).Contents (Elt F)),
    StableHlo.binary main_v113 main_v118 main_v119 (subf : (⟨S50000x128, .f32⟩ : BufTy).Contents (Elt F) → (⟨S50000x128, .f32⟩ : BufTy).Contents (Elt F) → (⟨S50000x128, .f32⟩ : BufTy).Contents (Elt F)),
    StableHlo.binary main_v119 main_v119 main_v120 (mulf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x00000000#32),
    StableHlo.binary main_v120 main_cst_28 main_v121 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v121 main_v122 (broadcastInDim S50000x1 ![0] bcast_S50000_S50000x1_0 : (⟨S50000, .f32⟩ : BufTy).Contents (Elt F) → (⟨S50000x1, .f32⟩ : BufTy).Contents (Elt F)),
    StableHlo.nullary main_cst_29 (constant S_ .f32 0x43000000#32),
    StableHlo.unary main_cst_29 main_v123 (broadcastInDim S50000x1 ![] bcast_S_S50000x1 : (⟨S_, .f32⟩ : BufTy).Contents (Elt F) → (⟨S50000x1, .f32⟩ : BufTy).Contents (Elt F)),
    StableHlo.binary main_v122 main_v123 main_v124 (Host.divf : (⟨S50000x1, .f32⟩ : BufTy).Contents (Elt F) → (⟨S50000x1, .f32⟩ : BufTy).Contents (Elt F) → (⟨S50000x1, .f32⟩ : BufTy).Contents (Elt F)),
    StableHlo.unary main_v117 main_v125 (broadcastInDim S50000x128 ![0, 1] bcast_S50000x1_S50000x128_0_1 : (⟨S50000x1, .f32⟩ : BufTy).Contents (Elt F) → (⟨S50000x128, .f32⟩ : BufTy).Contents (Elt F)),
    StableHlo.binary main_v113 main_v125 main_v126 (subf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3727C5AC#32),
    StableHlo.unary main_cst_30 main_v127 (broadcastInDim S50000x1 ![] bcast_S_S50000x1 : (⟨S_, .f32⟩ : BufTy).Contents (Elt F) → (⟨S50000x1, .f32⟩ : BufTy).Contents (Elt F)),
    StableHlo.binary main_v124 main_v127 main_v128 (addf : (⟨S50000x1, .f32⟩ : BufTy).Contents (Elt F) → (⟨S50000x1, .f32⟩ : BufTy).Contents (Elt F) → (⟨S50000x1, .f32⟩ : BufTy).Contents (Elt F)),
    StableHlo.unary main_v128 main_v129 (Host.rsqrt : (⟨S50000x1, .f32⟩ : BufTy).Contents (Elt F) → (⟨S50000x1, .f32⟩ : BufTy).Contents (Elt F)),
    StableHlo.unary main_v129 main_v130 (broadcastInDim S50000x128 ![0, 1] bcast_S50000x1_S50000x128_0_1 : (⟨S50000x1, .f32⟩ : BufTy).Contents (Elt F) → (⟨S50000x128, .f32⟩ : BufTy).Contents (Elt F)),
    StableHlo.binary main_v126 main_v130 main_v131 (mulf : (⟨S50000x128, .f32⟩ : BufTy).Contents (Elt F) → (⟨S50000x128, .f32⟩ : BufTy).Contents (Elt F) → (⟨S50000x128, .f32⟩ : BufTy).Contents (Elt F)),
    StableHlo.unary main_arg8 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v133 main_v134 (mulf : (⟨S50000x128, .f32⟩ : BufTy).Contents (Elt F) → (⟨S50000x128, .f32⟩ : BufTy).Contents (Elt F) → (⟨S50000x128, .f32⟩ : BufTy).Contents (Elt F)),
    StableHlo.unary main_arg9 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v136 main_v137 (addf : (⟨S50000x128, .f32⟩ : BufTy).Contents (Elt F) → (⟨S50000x128, .f32⟩ : BufTy).Contents (Elt F) → (⟨S50000x128, .f32⟩ : BufTy).Contents (Elt F)),
    StableHlo.nullary main_cst_31 (constant S_ .f32 0x3C23D70A#32),
    StableHlo.TRef.nullary main_call3.cst (constant S_ .f32 0x00000000#32),
    StableHlo.TRef.unary main_call3.cst main_call3.v0 (broadcastInDim S50000x128 ![] bcast_S_S50000x128),
    StableHlo.TRef.binary (.of main_v137) main_call3.v0 main_call3.v1 (cmpf .oge),
    StableHlo.TRef.unary (.of main_cst_31) main_call3.v2 id,
    StableHlo.TRef.unary main_call3.v2 main_call3.v3 (broadcastInDim S50000x128 ![] bcast_S_S50000x128),
    StableHlo.TRef.binary main_call3.v3 (.of main_v137) main_call3.v4 mulf,
    StableHlo.TRef.ternary main_call3.v1 (.of main_v137) main_call3.v4 main_call3.call0.v0 select ]

/-- The three windows of the entry function, as lists. -/
abbrev P0 : List (HloOp τ sig (Elt F)) := L0 ++ (L1 ++ (L2 ++ (L3 ++ L4a)))
abbrev P1 : List (HloOp τ sig (Elt F)) := L4b ++ (L5 ++ L6a)
abbrev P2 : List (HloOp τ sig (Elt F)) := L6b ++ (L7 ++ L8)

/-- The whole program's 189 operations, in order. -/
abbrev ops : List (HloOp τ sig (Elt F)) := P0 ++ (P1 ++ P2)

/-! Each window is its list run in order: the called functions' bodies are substituted at their calls and the
    sequencing is reassociated into one chain. -/

set_option maxRecDepth 4096 in
theorem part0_eq (c : Dev nD) : main_part0 (F := F) c = seq P0 := by
  simp only [P0, seq_append, L0, L1, L2, L3, L4a, main_part0, fn_where.body, fn_where_0.body, fn_leaky_relu.body, seq,
    bind_assoc, pure_bind]

set_option maxRecDepth 4096 in
theorem part1_eq (c : Dev nD) : main_part1 (F := F) c = seq P1 := by
  simp only [P1, seq_append, L4b, L5, L6a, main_part1, fn_where.body, fn_where_0.body, fn_leaky_relu.body, seq,
    bind_assoc, pure_bind]
  rfl

set_option maxRecDepth 4096 in
theorem part2_eq (c : Dev nD) : main_part2 (F := F) c = seq P2 := by
  simp only [P2, seq_append, L6b, L7, L8, main_part2, fn_where.body, fn_where_0.body, fn_leaky_relu.body, seq,
    bind_assoc, pure_bind]

/-- The entry function is the whole list run in order. -/
theorem main_eq (c : Dev nD) : main (F := F) c = seq ops := by
  rw [seq_append P0 (P1 ++ P2), seq_append P1 P2, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches only buffers of the device. -/

theorem L0_sub : (L0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem L1_sub : (L1 : List (HloOp τ sig (Elt F))).Forall fun op => op.bufs ⊆ tcRefs τ sig :=
  binary_bufs_sub ..
theorem L2_sub : (L2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem L3_sub : (L3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem L4a_sub : (L4a : List (HloOp τ sig (Elt F))).Forall fun op => op.bufs ⊆ tcRefs τ sig :=
  ⟨unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem L4b_sub : (L4b : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem L5_sub : (L5 : List (HloOp τ sig (Elt F))).Forall fun op => op.bufs ⊆ tcRefs τ sig :=
  binary_bufs_sub ..
theorem L6a_sub : (L6a : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
theorem L6b_sub : (L6b : List (HloOp τ sig (Elt F))).Forall fun op => op.bufs ⊆ tcRefs τ sig :=
  ⟨binary_bufs_sub .., binary_bufs_sub ..⟩
theorem L7_sub : (L7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem L8_sub : (L8 : List (HloOp τ sig (Elt F))).Forall fun op => op.bufs ⊆ tcRefs τ sig :=
  ⟨unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem ops_sub : (ops : List (HloOp τ sig (Elt F))).Forall fun op => op.bufs ⊆ tcRefs τ sig :=
  List.forall_append.2 ⟨List.forall_append.2 ⟨L0_sub, List.forall_append.2 ⟨L1_sub, List.forall_append.2 ⟨L2_sub,
      List.forall_append.2 ⟨L3_sub, L4a_sub⟩⟩⟩⟩,
    List.forall_append.2 ⟨List.forall_append.2 ⟨L4b_sub, List.forall_append.2 ⟨L5_sub, L6a_sub⟩⟩,
      List.forall_append.2 ⟨L6b_sub, List.forall_append.2 ⟨L7_sub, L8_sub⟩⟩⟩⟩

/-- No operation allocates: each determines its results. -/
theorem ops_fresh : ∀ op ∈ (ops : List (HloOp τ sig (Elt F))), op.fresh = ∅ := by
  intro op h
  simp only [ops, P0, P1, P2, L0, L1, L2, L3, L4a, L4b, L5, L6a, L6b, L7, L8, List.cons_append, List.nil_append] at h
  repeat (cases h with | head => rfl | tail _ h => ?_)
  exact nomatch h

/-- For any float values, from any memory with zero counters: every weakly fair execution of the program
    terminates, and every final state has each buffer at the fold of the operations' results over the launch
    contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Whole

end
-- ==== Proof.ReferenceStages.lean ====
/-
  The reference program read stage by stage, on whole arrays.

  The program's operations come in consecutive pieces; each piece computes one named function of buffers
  written before it and leaves every buffer it does not write as it found it.  The pieces on the edge table
  (endpoint lists, degrees, edge weights, aggregation) are the graph functions of the specification, never
  opened here; the dense steps are the host's matrix product; the two layers are a bias row laid along every
  node, the leaky rectifier as a select against zero, and the row normalisation as two host sums along the
  feature axis with their broadcasts.  Composing the pieces gives the program's output as one closed term of
  the ten inputs.
-/
import proofs.«166512_j2954937500451_1_alg».proof.Proof.ReferenceOps
import proofs.«166512_j2954937500451_1_alg».proof.Proof.GraphNet
import Idealize.ShloMosaic.Lib.Pipeline.Frame

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-! ## The layers' whole-array functions -/

/-- A feature vector laid along every node's row. -/
def rowBcast (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The leaky rectifier as the program spells it: where the value is at least zero the value, elsewhere the slope
    times the value. -/
def rect (y : (⟨S50000x128, .f32⟩ : BufTy).Contents (Elt F)) : (⟨S50000x128, .f32⟩ : BufTy).Contents (Elt F) :=
  select (cmpf .oge y (broadcastInDim S50000x128 ![] bcast_S_S50000x128 (constant (F := F) S_ .f32 0x00000000#32))) y
    (mulf (broadcastInDim S50000x128 ![] bcast_S_S50000x128 (constant (F := F) S_ .f32 0x3C23D70A#32)) y)

/-- Each row's mean, as a column: the host sum along the feature axis divided by the width. -/
def rowMean (y : (⟨S50000x128, .f32⟩ : BufTy).Contents (Elt F)) : (⟨S50000x1, .f32⟩ : BufTy).Contents (Elt F) :=
  Host.divf
    (broadcastInDim S50000x1 ![0] bcast_S50000_S50000x1_0
      (Host.reduceAdd y (constant (F := F) S_ .f32 0x00000000#32) reducesTo_S50000x128_S50000_d1 h_S_))
    (broadcastInDim S50000x1 ![] bcast_S_S50000x1 (constant (F := F) S_ .f32 0x43000000#32))

/-- A column laid along the feature axis. -/
def colBcast (v : (⟨S50000x1, .f32⟩ : BufTy).Contents (Elt F)) : (⟨S50000x128, .f32⟩ : BufTy).Contents (Elt F) :=
  broadcastInDim S50000x128 ![0, 1] bcast_S50000x1_S50000x128_0_1 v

/-- Row normalisation: the deviation from the row mean, times the reciprocal square root of the mean squared
    deviation plus the offset, scaled by `g` and shifted by `s`. -/
def norm (y : (⟨S50000x128, .f32⟩ : BufTy).Contents (Elt F)) (g s : (⟨S128, .f32⟩ : BufTy).Contents (Elt F)) :
    (⟨S50000x128, .f32⟩ : BufTy).Contents (Elt F) :=
  addf
    (mulf
      (mulf (subf y (colBcast (rowMean y)))
        (colBcast (Host.rsqrt (addf
          (rowMean (mulf (subf y (colBcast (rowMean y))) (subf y (colBcast (rowMean y)))))
          (broadcastInDim S50000x1 ![] bcast_S_S50000x1 (constant (F := F) S_ .f32 0x3727C5AC#32))))))
      (rowBcast g))
    (rowBcast s)

/-- The first layer's first half: bias, then rectifier. -/
def act1 (A : (⟨S50000x128, .f32⟩ : BufTy).Contents (Elt F)) (b : (⟨S128, .f32⟩ : BufTy).Contents (Elt F)) :
    (⟨S50000x128, .f32⟩ : BufTy).Contents (Elt F) :=
  rect (addf A (rowBcast b))

/-- The first layer: bias, rectifier, residual, normalisation. -/
def layer1W (A : (⟨S50000x128, .f32⟩ : BufTy).Contents (Elt F)) (b : (⟨S128, .f32⟩ : BufTy).Contents (Elt F))
    (X : (⟨S50000x128, .f32⟩ : BufTy).Contents (Elt F)) (g s : (⟨S128, .f32⟩ : BufTy).Contents (Elt F)) :
    (⟨S50000x128, .f32⟩ : BufTy).Contents (Elt F) :=
  norm (addf (act1 A b) X) g s

/-- The second layer: bias, residual, normalisation, rectifier. -/
def layer2W (A : (⟨S50000x128, .f32⟩ : BufTy).Contents (Elt F)) (b : (⟨S128, .f32⟩ : BufTy).Contents (Elt F))
    (X : (⟨S50000x128, .f32⟩ : BufTy).Contents (Elt F)) (g s : (⟨S128, .f32⟩ : BufTy).Contents (Elt F)) :
    (⟨S50000x128, .f32⟩ : BufTy).Contents (Elt F) :=
  rect (norm (addf (addf A (rowBcast b)) X) g s)

/-- The dense step on whole arrays: the host's matrix product. -/
def denseW (A : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none A W

/-- One propagation step on whole arrays: the dense step, then aggregation along the edges with the edge weights. -/
def propW (ei : (⟨S2x800000, .i32⟩ : BufTy).Contents (Elt F)) (A : (⟨S50000x128, .f32⟩ : BufTy).Contents (Elt F))
    (W : (⟨S128x128, .f32⟩ : BufTy).Contents (Elt F)) : (⟨S50000x128, .f32⟩ : BufTy).Contents (Elt F) :=
  Cert.GraphConv.aggregate (Cert.GraphConv.sources ei) (Cert.GraphConv.targets ei)
    (Cert.GraphConv.edgeWeight (Cert.GraphConv.sources ei) (Cert.GraphConv.targets ei)) (denseW A W)

/-- The whole program on whole arrays: propagate, first layer, propagate, second layer, the input features the
    residual of both layers. -/
def netW (x : (⟨S50000x128, .f32⟩ : BufTy).Contents (Elt F)) (ei : (⟨S2x800000, .i32⟩ : BufTy).Contents (Elt F))
    (W1 : (⟨S128x128, .f32⟩ : BufTy).Contents (Elt F)) (b1 g1 s1 : (⟨S128, .f32⟩ : BufTy).Contents (Elt F))
    (W2 : (⟨S128x128, .f32⟩ : BufTy).Contents (Elt F)) (b2 g2 s2 : (⟨S128, .f32⟩ : BufTy).Contents (Elt F)) :
    (⟨S50000x128, .f32⟩ : BufTy).Contents (Elt F) :=
  layer2W (propW ei (layer1W (propW ei x W1) b1 x g1 s1) W2) b2 x g2 s2

/-! ## What each piece writes, and that it leaves the rest alone -/

/-- The buffers piece `L0` writes. -/
abbrev W0 : List (Ref sig .tc) :=
  [main_v0, main_v1, main_v2, main_v3, main_v4, main_v5, main_v6]

theorem L0_writes : (L0 : List (HloOp τ sig (Elt F))).Forall fun op =>
    op.writes ⊆ ((W0).map (Proc.devRef (τ := τ) .tc)).toFinset := by
  simp only [L0, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L0_frame (V : Valuation τ sig (Elt F)) {r : Ref sig .tc} (hr : r ∉ W0) :
    after L0 V (Proc.devRef .tc r) = V (Proc.devRef .tc r) :=
  after_of_writes_sub L0 V L0_writes hr

/-- The buffers piece `L1` writes. -/
abbrev W1 : List (Ref sig .tc) :=
  [main_v7]

theorem L1_writes : (L1 : List (HloOp τ sig (Elt F))).Forall fun op =>
    op.writes ⊆ ((W1).map (Proc.devRef (τ := τ) .tc)).toFinset := by
  simp only [L1, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L1_frame (V : Valuation τ sig (Elt F)) {r : Ref sig .tc} (hr : r ∉ W1) :
    after L1 V (Proc.devRef .tc r) = V (Proc.devRef .tc r) :=
  after_of_writes_sub L1 V L1_writes hr

/-- The buffers piece `L2` writes. -/
abbrev W2 : List (Ref sig .tc) :=
  [main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30]

theorem L2_writes : (L2 : List (HloOp τ sig (Elt F))).Forall fun op =>
    op.writes ⊆ ((W2).map (Proc.devRef (τ := τ) .tc)).toFinset := by
  simp only [L2, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L2_frame (V : Valuation τ sig (Elt F)) {r : Ref sig .tc} (hr : r ∉ W2) :
    after L2 V (Proc.devRef .tc r) = V (Proc.devRef .tc r) :=
  after_of_writes_sub L2 V L2_writes hr

/-- The buffers piece `L3` writes. -/
abbrev W3 : List (Ref sig .tc) :=
  [main_c_6, main_v31, main_v32, main_c_7, main_v33, main_v34, main_v35, main_v36, main_v37, main_v38, main_v39, main_v40, main_cst_8, main_v41, main_v42, main_v43]

theorem L3_writes : (L3 : List (HloOp τ sig (Elt F))).Forall fun op =>
    op.writes ⊆ ((W3).map (Proc.devRef (τ := τ) .tc)).toFinset := by
  simp only [L3, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L3_frame (V : Valuation τ sig (Elt F)) {r : Ref sig .tc} (hr : r ∉ W3) :
    after L3 V (Proc.devRef .tc r) = V (Proc.devRef .tc r) :=
  after_of_writes_sub L3 V L3_writes hr

/-- The buffers piece `L4a` writes. -/
abbrev W4a : List (Ref sig .tc) :=
  [main_v44, main_v45, main_v46, main_cst_9, main_call1_cst, main_call1_v0, main_call1_v1, main_call1_v2, main_call1_v3, main_call1_v4, main_v47]

theorem L4a_writes : (L4a : List (HloOp τ sig (Elt F))).Forall fun op =>
    op.writes ⊆ ((W4a).map (Proc.devRef (τ := τ) .tc)).toFinset := by
  simp only [L4a, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L4a_frame (V : Valuation τ sig (Elt F)) {r : Ref sig .tc} (hr : r ∉ W4a) :
    after L4a V (Proc.devRef .tc r) = V (Proc.devRef .tc r) :=
  after_of_writes_sub L4a V L4a_writes hr

/-- The buffers piece `L4b` writes. -/
abbrev W4b : List (Ref sig .tc) :=
  [main_v48, main_cst_10, main_v49, main_v50, main_cst_11, main_v51, main_v52, main_v53, main_v54, main_v55, main_cst_12, main_v56, main_v57, main_cst_13, main_v58, main_v59, main_v60, main_v61, main_cst_14, main_v62, main_v63, main_v64, main_v65, main_v66, main_v67, main_v68, main_v69, main_v70, main_v71, main_v72]

theorem L4b_writes : (L4b : List (HloOp τ sig (Elt F))).Forall fun op =>
    op.writes ⊆ ((W4b).map (Proc.devRef (τ := τ) .tc)).toFinset := by
  simp only [L4b, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L4b_frame (V : Valuation τ sig (Elt F)) {r : Ref sig .tc} (hr : r ∉ W4b) :
    after L4b V (Proc.devRef .tc r) = V (Proc.devRef .tc r) :=
  after_of_writes_sub L4b V L4b_writes hr

/-- The buffers piece `L5` writes. -/
abbrev W5 : List (Ref sig .tc) :=
  [main_v73]

theorem L5_writes : (L5 : List (HloOp τ sig (Elt F))).Forall fun op =>
    op.writes ⊆ ((W5).map (Proc.devRef (τ := τ) .tc)).toFinset := by
  simp only [L5, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L5_frame (V : Valuation τ sig (Elt F)) {r : Ref sig .tc} (hr : r ∉ W5) :
    after L5 V (Proc.devRef .tc r) = V (Proc.devRef .tc r) :=
  after_of_writes_sub L5 V L5_writes hr

/-- The buffers piece `L6a` writes. -/
abbrev W6a : List (Ref sig .tc) :=
  [main_cst_15, main_v74, main_cst_16, main_v75, main_v76, main_v77, main_cst_17, main_v78, main_v79, main_v80, main_cst_18, main_call2_v0, main_call2_v1, main_v81, main_c_19, main_v82, main_v83, main_c_20, main_v84, main_v85, main_v86, main_v87, main_v88, main_c_21, main_v89, main_v90, main_c_22, main_v91, main_v92, main_v93, main_v94]

theorem L6a_writes : (L6a : List (HloOp τ sig (Elt F))).Forall fun op =>
    op.writes ⊆ ((W6a).map (Proc.devRef (τ := τ) .tc)).toFinset := by
  simp only [L6a, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L6a_frame (V : Valuation τ sig (Elt F)) {r : Ref sig .tc} (hr : r ∉ W6a) :
    after L6a V (Proc.devRef .tc r) = V (Proc.devRef .tc r) :=
  after_of_writes_sub L6a V L6a_writes hr

/-- The buffers piece `L6b` writes. -/
abbrev W6b : List (Ref sig .tc) :=
  [main_v95, main_v96]

theorem L6b_writes : (L6b : List (HloOp τ sig (Elt F))).Forall fun op =>
    op.writes ⊆ ((W6b).map (Proc.devRef (τ := τ) .tc)).toFinset := by
  simp only [L6b, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L6b_frame (V : Valuation τ sig (Elt F)) {r : Ref sig .tc} (hr : r ∉ W6b) :
    after L6b V (Proc.devRef .tc r) = V (Proc.devRef .tc r) :=
  after_of_writes_sub L6b V L6b_writes hr

/-- The buffers piece `L7` writes. -/
abbrev W7 : List (Ref sig .tc) :=
  [main_c_23, main_v97, main_v98, main_c_24, main_v99, main_v100, main_v101, main_v102, main_v103, main_v104, main_v105, main_v106, main_cst_25, main_v107, main_v108, main_v109]

theorem L7_writes : (L7 : List (HloOp τ sig (Elt F))).Forall fun op =>
    op.writes ⊆ ((W7).map (Proc.devRef (τ := τ) .tc)).toFinset := by
  simp only [L7, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L7_frame (V : Valuation τ sig (Elt F)) {r : Ref sig .tc} (hr : r ∉ W7) :
    after L7 V (Proc.devRef .tc r) = V (Proc.devRef .tc r) :=
  after_of_writes_sub L7 V L7_writes hr

/-- The buffers piece `L8` writes. -/
abbrev W8 : List (Ref sig .tc) :=
  [main_v110, main_v111, main_v112, main_v113, main_cst_26, main_v114, main_v115, main_cst_27, main_v116, main_v117, main_v118, main_v119, main_v120, main_cst_28, main_v121, main_v122, main_cst_29, main_v123, main_v124, main_v125, main_v126, main_cst_30, main_v127, main_v128, main_v129, main_v130, main_v131, main_v132, main_v133, main_v134, main_v135, main_v136, main_v137, main_cst_31, main_call3_cst, main_call3_v0, main_call3_v1, main_call3_v2, main_call3_v3, main_call3_v4, main_v138]

theorem L8_writes : (L8 : List (HloOp τ sig (Elt F))).Forall fun op =>
    op.writes ⊆ ((W8).map (Proc.devRef (τ := τ) .tc)).toFinset := by
  simp only [L8, List.Forall, TRef.nullary, TRef.unary, TRef.binary, TRef.ternary, nullary_writes, unary_writes, binary_writes,
    ternary_writes, reshape_writes, Finset.singleton_subset_iff, List.mem_toFinset]
  repeat' apply And.intro
  all_goals exact List.mem_map.2 ⟨_, by decide, rfl⟩

theorem L8_frame (V : Valuation τ sig (Elt F)) {r : Ref sig .tc} (hr : r ∉ W8) :
    after L8 V (Proc.devRef .tc r) = V (Proc.devRef .tc r) :=
  after_of_writes_sub L8 V L8_writes hr

/-! ## What each piece computes -/

section Pieces
attribute [local irreducible] Host.gather Host.scatterAdd Host.reduceAdd

theorem L0_v3 (V : Valuation τ sig (Elt F)) :
    after L0 V (main_v3 : DevRef τ sig) = Cert.GraphConv.sources (V (main_arg1 : DevRef τ sig)) := by
  after_results_simp
  rfl

theorem L0_v6 (V : Valuation τ sig (Elt F)) :
    after L0 V (main_v6 : DevRef τ sig) = Cert.GraphConv.targets (V (main_arg1 : DevRef τ sig)) := by
  after_results_simp
  rfl

theorem L1_v7 (V : Valuation τ sig (Elt F)) :
    after L1 V (main_v7 : DevRef τ sig) = denseW (V (main_arg0 : DevRef τ sig)) (V (main_arg2 : DevRef τ sig)) := by
  after_results_simp
  rfl

theorem L2_v30 (V : Valuation τ sig (Elt F)) :
    after L2 V (main_v30 : DevRef τ sig) = Cert.GraphConv.edgeWeight (V (main_v3 : DevRef τ sig)) (V (main_v6 : DevRef τ sig)) := by
  after_results_simp
  rfl

theorem L3_v43 (V : Valuation τ sig (Elt F)) :
    after L3 V (main_v43 : DevRef τ sig) = Cert.GraphConv.aggregate (V (main_v3 : DevRef τ sig)) (V (main_v6 : DevRef τ sig)) (V (main_v30 : DevRef τ sig)) (V (main_v7 : DevRef τ sig)) := by
  after_results_simp
  rfl

theorem L4a_v47 (V : Valuation τ sig (Elt F)) :
    after L4a V (main_v47 : DevRef τ sig) = act1 (V (main_v43 : DevRef τ sig)) (V (main_arg3 : DevRef τ sig)) := by
  after_results_simp
  rfl

theorem L4b_v72 (V : Valuation τ sig (Elt F)) :
    after L4b V (main_v72 : DevRef τ sig) = norm (addf (V (main_v47 : DevRef τ sig)) (V (main_arg0 : DevRef τ sig))) (V (main_arg4 : DevRef τ sig)) (V (main_arg5 : DevRef τ sig)) := by
  after_results_simp
  rfl

theorem L5_v73 (V : Valuation τ sig (Elt F)) :
    after L5 V (main_v73 : DevRef τ sig) = denseW (V (main_v72 : DevRef τ sig)) (V (main_arg6 : DevRef τ sig)) := by
  after_results_simp
  rfl

theorem L6a_v81 (V : Valuation τ sig (Elt F)) :
    after L6a V (main_v81 : DevRef τ sig) = Cert.GraphConv.invSqrtDegree (V (main_v6 : DevRef τ sig)) := by
  after_results_simp
  rfl

theorem L6a_v88 (V : Valuation τ sig (Elt F)) :
    after L6a V (main_v88 : DevRef τ sig) = Host.gather Cert.KernelIdeal.gather_S50000_S850000x1_S850000_n_0_n_n_0_1_1 (Cert.GraphConv.invSqrtDegree (V (main_v6 : DevRef τ sig))) (Cert.GraphConv.positions (V (main_v3 : DevRef τ sig))) := by
  after_results_simp
  rfl

theorem L6a_v94 (V : Valuation τ sig (Elt F)) :
    after L6a V (main_v94 : DevRef τ sig) = Cert.GraphConv.positions (V (main_v6 : DevRef τ sig)) := by
  after_results_simp
  rfl

theorem L6b_v96 (V : Valuation τ sig (Elt F)) :
    after L6b V (main_v96 : DevRef τ sig) = mulf (V (main_v88 : DevRef τ sig)) (Host.gather Cert.KernelIdeal.gather_S50000_S850000x1_S850000_n_0_n_n_0_1_1 (V (main_v81 : DevRef τ sig)) (V (main_v94 : DevRef τ sig))) := by
  after_results_simp
  rfl

theorem L7_v109 (V : Valuation τ sig (Elt F)) :
    after L7 V (main_v109 : DevRef τ sig) = Cert.GraphConv.aggregate (V (main_v3 : DevRef τ sig)) (V (main_v6 : DevRef τ sig)) (V (main_v96 : DevRef τ sig)) (V (main_v73 : DevRef τ sig)) := by
  after_results_simp
  rfl

theorem L8_v138 (V : Valuation τ sig (Elt F)) :
    after L8 V (main_v138 : DevRef τ sig) = layer2W (V (main_v109 : DevRef τ sig)) (V (main_arg7 : DevRef τ sig)) (V (main_arg0 : DevRef τ sig)) (V (main_arg8 : DevRef τ sig)) (V (main_arg9 : DevRef τ sig)) := by
  after_results_simp
  rfl

end Pieces

/-! ## The pieces composed -/

/-- The program's result buffer after all the operations is the whole-array network of the ten inputs. -/
theorem out_eq (V : Valuation τ sig (Elt F)) :
    after ops V (main_v138 : DevRef τ sig)
      = netW (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  simp only [ops, P0, P1, P2, StableHlo.after_append]
  rw [L8_v138]
  rw [L7_v109,
    L7_frame (r := main_arg7) _ (by decide),
    L7_frame (r := main_arg0) _ (by decide),
    L7_frame (r := main_arg8) _ (by decide),
    L7_frame (r := main_arg9) _ (by decide)]
  rw [L6b_frame (r := main_arg7) _ (by decide),
    L6b_frame (r := main_arg0) _ (by decide),
    L6b_frame (r := main_arg8) _ (by decide),
    L6b_frame (r := main_arg9) _ (by decide),
    L6b_frame (r := main_v3) _ (by decide),
    L6b_frame (r := main_v6) _ (by decide),
    L6b_v96,
    L6b_frame (r := main_v73) _ (by decide)]
  rw [L6a_frame (r := main_arg7) _ (by decide),
    L6a_frame (r := main_arg0) _ (by decide),
    L6a_frame (r := main_arg8) _ (by decide),
    L6a_frame (r := main_arg9) _ (by decide),
    L6a_frame (r := main_v3) _ (by decide),
    L6a_frame (r := main_v6) _ (by decide),
    L6a_frame (r := main_v73) _ (by decide),
    L6a_v88,
    L6a_v81,
    L6a_v94]
  rw [L5_frame (r := main_arg7) _ (by decide),
    L5_frame (r := main_arg0) _ (by decide),
    L5_frame (r := main_arg8) _ (by decide),
    L5_frame (r := main_arg9) _ (by decide),
    L5_frame (r := main_v3) _ (by decide),
    L5_frame (r := main_v6) _ (by decide),
    L5_v73]
  rw [L4b_frame (r := main_arg7) _ (by decide),
    L4b_frame (r := main_arg0) _ (by decide),
    L4b_frame (r := main_arg8) _ (by decide),
    L4b_frame (r := main_arg9) _ (by decide),
    L4b_frame (r := main_v3) _ (by decide),
    L4b_frame (r := main_v6) _ (by decide),
    L4b_v72,
    L4b_frame (r := main_arg6) _ (by decide)]
  rw [L4a_frame (r := main_arg7) _ (by decide),
    L4a_frame (r := main_arg0) _ (by decide),
    L4a_frame (r := main_arg8) _ (by decide),
    L4a_frame (r := main_arg9) _ (by decide),
    L4a_frame (r := main_v3) _ (by decide),
    L4a_frame (r := main_v6) _ (by decide),
    L4a_frame (r := main_arg6) _ (by decide),
    L4a_v47,
    L4a_frame (r := main_arg4) _ (by decide),
    L4a_frame (r := main_arg5) _ (by decide)]
  rw [L3_frame (r := main_arg7) _ (by decide),
    L3_frame (r := main_arg0) _ (by decide),
    L3_frame (r := main_arg8) _ (by decide),
    L3_frame (r := main_arg9) _ (by decide),
    L3_frame (r := main_v3) _ (by decide),
    L3_frame (r := main_v6) _ (by decide),
    L3_frame (r := main_arg6) _ (by decide),
    L3_frame (r := main_arg4) _ (by decide),
    L3_frame (r := main_arg5) _ (by decide),
    L3_v43,
    L3_frame (r := main_arg3) _ (by decide)]
  rw [L2_frame (r := main_arg7) _ (by decide),
    L2_frame (r := main_arg0) _ (by decide),
    L2_frame (r := main_arg8) _ (by decide),
    L2_frame (r := main_arg9) _ (by decide),
    L2_frame (r := main_v3) _ (by decide),
    L2_frame (r := main_v6) _ (by decide),
    L2_frame (r := main_arg6) _ (by decide),
    L2_frame (r := main_arg4) _ (by decide),
    L2_frame (r := main_arg5) _ (by decide),
    L2_frame (r := main_arg3) _ (by decide),
    L2_v30,
    L2_frame (r := main_v7) _ (by decide)]
  rw [L1_frame (r := main_arg7) _ (by decide),
    L1_frame (r := main_arg0) _ (by decide),
    L1_frame (r := main_arg8) _ (by decide),
    L1_frame (r := main_arg9) _ (by decide),
    L1_frame (r := main_v3) _ (by decide),
    L1_frame (r := main_v6) _ (by decide),
    L1_frame (r := main_arg6) _ (by decide),
    L1_frame (r := main_arg4) _ (by decide),
    L1_frame (r := main_arg5) _ (by decide),
    L1_frame (r := main_arg3) _ (by decide),
    L1_v7]
  rw [L0_frame (r := main_arg7) _ (by decide),
    L0_frame (r := main_arg0) _ (by decide),
    L0_frame (r := main_arg8) _ (by decide),
    L0_frame (r := main_arg9) _ (by decide),
    L0_v3,
    L0_v6,
    L0_frame (r := main_arg6) _ (by decide),
    L0_frame (r := main_arg4) _ (by decide),
    L0_frame (r := main_arg5) _ (by decide),
    L0_frame (r := main_arg3) _ (by decide),
    L0_frame (r := main_arg2) _ (by decide)]
  rfl

/-- A buffer no piece writes ends as it started. -/
theorem ops_frame (V : Valuation τ sig (Elt F)) {r : Ref sig .tc} (h0 : r ∉ W0) (h1 : r ∉ W1) (h2 : r ∉ W2) (h3 : r ∉ W3) (h4 : r ∉ W4a) (h5 : r ∉ W4b) (h6 : r ∉ W5) (h7 : r ∉ W6a) (h8 : r ∉ W6b) (h9 : r ∉ W7) (h10 : r ∉ W8) :
    after ops V (Proc.devRef .tc r) = V (Proc.devRef .tc r) := by
  simp only [ops, P0, P1, P2, StableHlo.after_append]
  rw [L8_frame _ h10, L7_frame _ h9, L6b_frame _ h8, L6a_frame _ h7, L5_frame _ h6, L4b_frame _ h5, L4a_frame _ h4, L3_frame _ h3, L2_frame _ h2, L1_frame _ h1, L0_frame _ h0]

end Cert.ReferenceIdeal.Whole

end
-- ==== Proof.ReferenceRows.lean ====
/-
  The reference's two layers and its dense step, read row by row over the extended reals.

  The reference works on whole 50000 x 128 arrays.  A layer adds the bias vector to every row, adds the residual
  array, applies the leaky rectifier (before the residual in layer 1, last in layer 2) and normalises every row:
  subtract the row's mean, multiply by the reciprocal square root of the mean squared deviation plus a small offset,
  scale and shift.  A 128-entry vector reaches the array's shape by two broadcasts (as one row, then over the rows);
  a row's sum reaches it as a column repeated along the row; a scalar word is repeated everywhere.

  `hostLayer1` and `hostLayer2` spell the two layers operation by operation on whole arrays; the theorems say that
  they are the row functions of GraphConv.lean applied to every row, and that the product with a 128 x 128 matrix
  is the row-by-row product.  On extended reals every operation is exact, so each statement is the operations read
  at one index.
-/
import proofs.«166512_j2954937500451_1_alg».proof.Proof.Gen.ReferenceIdeal
import proofs.«166512_j2954937500451_1_alg».proof.Proof.GraphConv
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Whole

open Cert.ReferenceIdeal Cert.ReferenceIdeal.Facts₀ Idealize.ShloMosaic Idealize.ShloMosaic.ValueIdx Cert.GraphConv

/-- A 128-entry vector repeated over the 50000 rows: first as one row, then over the rows. -/
def rowsOf (v : FVec Ideal S128 .f32) : FVec Ideal S50000x128 .f32 :=
  broadcastInDim S50000x128 ![0, 1] bcast_S1x128_S50000x128_0_1 (broadcastInDim S1x128 ![1] bcast_S128_S1x128_1 v)

/-- The leaky rectifier on a whole array: where the entry is at least the zero word the entry, elsewhere the slope
    word times the entry. -/
def hostLeaky (y : FVec Ideal S50000x128 .f32) : FVec Ideal S50000x128 .f32 :=
  select (cmpf .oge y (broadcastInDim S50000x128 ![] bcast_S_S50000x128 (constant (F := Ideal) S_ .f32 0x00000000#32))) y
    (mulf (broadcastInDim S50000x128 ![] bcast_S_S50000x128 (id (constant (F := Ideal) S_ .f32 0x3C23D70A#32))) y)

/-- The mean of every row, kept as a column: the row sums from the zero word, as a column, divided by the width
    word. -/
def hostRowMean (y : FVec Ideal S50000x128 .f32) : FVec Ideal S50000x1 .f32 :=
  Host.divf
    (broadcastInDim S50000x1 ![0] bcast_S50000_S50000x1_0
      (Host.reduceAdd y (constant (F := Ideal) S_ .f32 0x00000000#32) reducesTo_S50000x128_S50000_d1 h_S_))
    (broadcastInDim S50000x1 ![] bcast_S_S50000x1 (constant (F := Ideal) S_ .f32 0x43000000#32))

/-- Every entry less its row's mean. -/
def hostCentred (y : FVec Ideal S50000x128 .f32) : FVec Ideal S50000x128 .f32 :=
  subf y (broadcastInDim S50000x128 ![0, 1] bcast_S50000x1_S50000x128_0_1 (hostRowMean y))

/-- Row normalisation on a whole array: the deviations from the row means, times the reciprocal square root of the
    rows' mean squared deviation plus the offset word, times the scale vector, plus the shift vector. -/
def hostNorm (y : FVec Ideal S50000x128 .f32) (g s : FVec Ideal S128 .f32) : FVec Ideal S50000x128 .f32 :=
  addf
    (mulf
      (mulf (hostCentred y)
        (broadcastInDim S50000x128 ![0, 1] bcast_S50000x1_S50000x128_0_1
          (Host.rsqrt
            (addf (hostRowMean (mulf (hostCentred y) (hostCentred y)))
              (broadcastInDim S50000x1 ![] bcast_S_S50000x1 (constant (F := Ideal) S_ .f32 0x3727C5AC#32))))))
      (rowsOf g))
    (rowsOf s)

/-- Layer 1 on whole arrays, operation by operation: bias, rectifier, residual, normalisation. -/
def hostLayer1 (A : (⟨S50000x128, .f32⟩ : BufTy).Contents (Elt Ideal)) (b : (⟨S128, .f32⟩ : BufTy).Contents (Elt Ideal))
    (X : (⟨S50000x128, .f32⟩ : BufTy).Contents (Elt Ideal)) (g s : (⟨S128, .f32⟩ : BufTy).Contents (Elt Ideal)) :
    (⟨S50000x128, .f32⟩ : BufTy).Contents (Elt Ideal) :=
  hostNorm (addf (hostLeaky (addf (A : FVec Ideal S50000x128 .f32) (rowsOf b))) (X : FVec Ideal S50000x128 .f32)) g s

/-- Layer 2 on whole arrays, operation by operation: bias, residual, normalisation, rectifier. -/
def hostLayer2 (A : (⟨S50000x128, .f32⟩ : BufTy).Contents (Elt Ideal)) (b : (⟨S128, .f32⟩ : BufTy).Contents (Elt Ideal))
    (X : (⟨S50000x128, .f32⟩ : BufTy).Contents (Elt Ideal)) (g s : (⟨S128, .f32⟩ : BufTy).Contents (Elt Ideal)) :
    (⟨S50000x128, .f32⟩ : BufTy).Contents (Elt Ideal) :=
  hostLeaky (hostNorm (addf (addf (A : FVec Ideal S50000x128 .f32) (rowsOf b)) (X : FVec Ideal S50000x128 .f32)) g s)

/-! ## The dense step -/

/-- The dimension numbers of the dense step: rows by columns, one contracted axis of 128. -/
abbrev DR : DotDims S50000x128 S128x128 S50000x128 := dot_S50000x128_S128x128_S50000x128_1_0_0_1_n_n

/-- The left operand is read in the output's row … -/
theorem lhs_row (i : S50000x128.Idx) (c : DR.contr.Idx) : (DR.lhsIdx i c 0).val = (i 0).val := by
  unfold DotDims.lhsIdx
  rw [dif_neg (show ¬(0 : Fin S50000x128.rank) ∈ DR.lhsBatch by decide),
    dif_pos (show (0 : Fin S50000x128.rank) ∈ DR.lhsNonContracting by decide)]
  rfl
/-- … at the contracted position, … -/
theorem lhs_col (i : S50000x128.Idx) (c : DR.contr.Idx) : (DR.lhsIdx i c 1).val = (c ⟨0, by decide⟩).val :=
  DR.lhsIdx_val_of_single rfl i c
/-- … the right operand in the contracted position's row … -/
theorem rhs_row (i : S50000x128.Idx) (c : DR.contr.Idx) : (DR.rhsIdx i c 0).val = (c ⟨0, by decide⟩).val :=
  DR.rhsIdx_val_of_single rfl i c
/-- … at the output's column. -/
theorem rhs_col (i : S50000x128.Idx) (c : DR.contr.Idx) : (DR.rhsIdx i c 1).val = (i 1).val := by
  unfold DotDims.rhsIdx
  rw [dif_neg (show ¬(1 : Fin S128x128.rank) ∈ DR.rhsBatch by decide),
    dif_pos (show (1 : Fin S128x128.rank) ∈ DR.rhsNonContracting by decide)]
  rfl

/-- The product of the 50000 x 128 array with a 128 x 128 matrix is, row by row, the row times the matrix. -/
theorem hostDense_eq (A : (⟨S50000x128, .f32⟩ : BufTy).Contents (Elt Ideal)) (W : (⟨S128x128, .f32⟩ : BufTy).Contents (Elt Ideal)) :
    Host.dotGeneral (F := Ideal) (φ₁ := .f32) (φ₂ := .f32) dot_S50000x128_S128x128_S50000x128_1_0_0_1_n_n none A W
      = Cert.GraphConv.dense A W := by
  funext i
  obtain ⟨r, q, rfl⟩ : ∃ (r : Fin 50000) (q : Fin 128), i = ix2 r q := ⟨i 0, i 1, eq_ix2 i⟩
  refine (Ideal.dotGeneral_apply DR none .single A W (ix2 r q)).trans ?_
  show _ = ∑ k : Fin 128, A (ix2 r k) * W (ix2 k q)
  rw [← Equiv.sum_comp (contrEquiv1 DR 128 rfl rfl).symm]
  refine Finset.sum_congr rfl fun k _ => ?_
  have hk := contrEquiv1_symm_val DR 128 rfl rfl k
  have el : DR.lhsIdx (ix2 r q) ((contrEquiv1 DR 128 rfl rfl).symm k) = ix2 r k := funext fun ax => Fin.ext (by
    match ax with
    | ⟨0, _⟩ => exact lhs_row _ _
    | ⟨1, _⟩ => exact (lhs_col _ _).trans hk)
  have er : DR.rhsIdx (ix2 r q) ((contrEquiv1 DR 128 rfl rfl).symm k) = ix2 k q := funext fun ax => Fin.ext (by
    match ax with
    | ⟨0, _⟩ => exact (rhs_row _ _).trans hk
    | ⟨1, _⟩ => exact rhs_col _ _)
  rw [el, er]

/-! ## Broadcasts read at an index -/

section Bcast
variable {α : Type}

/-- A 128-entry vector viewed as one row reads, at `(u, k)`, the vector at `k`. -/
theorem feat_row_apply (v : S128.Idx → α) (u : Fin 1) (k : Fin 128) :
    broadcastInDim S1x128 ![1] bcast_S128_S1x128_1 v (ix2 u k) = v (ix1 k) :=
  broadcastInDim_apply _ _ v (ix2 u k) (ix1 k) fun a => by
    match a with
    | ⟨0, _⟩ => rfl

/-- One row repeated over the 50000 rows reads, at `(r, k)`, the row at `k`. -/
theorem row_all_apply (v : S1x128.Idx → α) (r : Fin 50000) (k : Fin 128) :
    broadcastInDim S50000x128 ![0, 1] bcast_S1x128_S50000x128_0_1 v (ix2 r k) = v (ix2 (0 : Fin 1) k) :=
  broadcastInDim_apply _ _ v (ix2 r k) (ix2 (0 : Fin 1) k) fun a => by
    match a with
    | ⟨0, _⟩ => rfl
    | ⟨1, _⟩ => rfl

/-- A 50000-entry vector viewed as a column reads, at `(r, u)`, the vector at `r`. -/
theorem col_of_apply (v : S50000.Idx → α) (r : Fin 50000) (u : Fin 1) :
    broadcastInDim S50000x1 ![0] bcast_S50000_S50000x1_0 v (ix2 r u) = v (ix1 r) :=
  broadcastInDim_apply _ _ v (ix2 r u) (ix1 r) fun a => by
    match a with
    | ⟨0, _⟩ => rfl

/-- A column repeated along the rows reads, at `(r, k)`, the column's entry in row `r`. -/
theorem col_all_apply (v : S50000x1.Idx → α) (r : Fin 50000) (k : Fin 128) :
    broadcastInDim S50000x128 ![0, 1] bcast_S50000x1_S50000x128_0_1 v (ix2 r k) = v (ix2 r (0 : Fin 1)) :=
  broadcastInDim_apply _ _ v (ix2 r k) (ix2 r (0 : Fin 1)) fun a => by
    match a with
    | ⟨0, _⟩ => rfl
    | ⟨1, _⟩ => rfl

/-- A scalar repeated over any shape reads the scalar everywhere. -/
theorem splat_apply {t : Shape} (h : S_.BroadcastsInDim t (![] : Fin 0 → Fin t.rank)) (v : S_.Idx → α) (j : t.Idx) :
    broadcastInDim t ![] h v j = v ix0 :=
  broadcastInDim_apply _ h v j ix0 fun a => a.elim0

end Bcast

/-- A 128-entry vector repeated over the rows reads, at `(r, k)`, the vector at `k`. -/
theorem rowsOf_apply (v : FVec Ideal S128 .f32) (r : Fin 50000) (k : Fin 128) : rowsOf v (ix2 r k) = v (ix1 k) :=
  (row_all_apply _ r k).trans (feat_row_apply v 0 k)

/-- The host's quotient at an index is the quotient of the entries … -/
theorem hostDivf_apply {s : Shape} (a b : FVec Ideal s .f32) (i : s.Idx) : Host.divf a b i = Ideal.div (a i) (b i) := rfl
/-- … and its reciprocal square root the reciprocal square root of the entry. -/
theorem hostRsqrt_apply {s : Shape} (a : FVec Ideal s .f32) (i : s.Idx) : Host.rsqrt a i = Ideal.rsqrt (a i) := rfl

/-- The sum of a 50000 x 128 array over its second axis, from the zero word, at row `r`: the sum of the row's 128
    entries. -/
theorem row_sum (y : FVec Ideal S50000x128 .f32) (r : Fin 50000) :
    Host.reduceAdd y (constant (F := Ideal) S_ .f32 0x00000000#32) reducesTo_S50000x128_S50000_d1 h_S_ (ix1 r)
      = ∑ k : Fin 128, y (ix2 r k) := by
  unfold Host.reduceAdd
  refine (Ideal.hostReduceAdd_single reducesTo_S50000x128_S50000_d1 (by decide) y _ (ix1 r)).trans ?_
  refine Eq.trans (congrArg (· + _) Ideal.ofBits_zero_f32) ?_
  rw [zero_add]
  refine Finset.sum_congr rfl fun k _ => congrArg y (funext fun a => Fin.ext (by
    match a with
    | ⟨0, _⟩ => rfl
    | ⟨1, _⟩ => rfl))

/-! ## The layers' stages at an index -/

/-- Entry by entry the whole-array rectifier is the rectifier. -/
theorem hostLeaky_apply (y : FVec Ideal S50000x128 .f32) (i : S50000x128.Idx) : hostLeaky y i = leaky (y i) := by
  have h0 : broadcastInDim S50000x128 ![] bcast_S_S50000x128 (constant (F := Ideal) S_ .f32 0x00000000#32) i
      = Ideal.ofBits .f32 0x00000000#32 := splat_apply _ _ i
  have h1 : broadcastInDim S50000x128 ![] bcast_S_S50000x128 (id (constant (F := Ideal) S_ .f32 0x3C23D70A#32)) i
      = slope := splat_apply _ _ i
  unfold hostLeaky
  refine (select_apply _ _ _ _).trans ?_
  refine Eq.trans ?_ (select_ge_eq_leaky (y i))
  exact congr (congrArg (fun c m => Scalar.select c (y i) m) (congrArg (Ideal.cmp .oge (y i)) h0))
    (congrArg (· * y i) h1)

/-- The column of row means holds, in row `r`, the mean of row `r`. -/
theorem hostRowMean_apply (y : FVec Ideal S50000x128 .f32) (r : Fin 50000) (u : Fin 1) :
    hostRowMean y (ix2 r u) = mean (fun k => y (ix2 r k)) := by
  unfold hostRowMean mean width
  refine (hostDivf_apply _ _ _).trans ?_
  refine congrArg₂ Ideal.div ?_ (splat_apply _ _ _)
  refine (col_of_apply _ r u).trans ?_
  exact row_sum y r

/-- The deviation at `(r, q)` is the entry less the mean of row `r`. -/
theorem hostCentred_apply (y : FVec Ideal S50000x128 .f32) (r : Fin 50000) (q : Fin 128) :
    hostCentred y (ix2 r q) = y (ix2 r q) - mean (fun k => y (ix2 r k)) := by
  unfold hostCentred
  refine (subf_apply _ _ _).trans ?_
  refine congrArg (y (ix2 r q) - ·) ?_
  refine (col_all_apply _ r q).trans ?_
  exact hostRowMean_apply y r 0

/-- The normalised array at `(r, q)` is the row normalisation of row `r` at entry `q`. -/
theorem hostNorm_apply (y : FVec Ideal S50000x128 .f32) (g s : FVec Ideal S128 .f32) (r : Fin 50000) (q : Fin 128) :
    hostNorm y g s (ix2 r q)
      = normalise (fun k => y (ix2 r k)) (fun k => g (ix1 k)) (fun k => s (ix1 k)) q := by
  have hr : broadcastInDim S50000x128 ![0, 1] bcast_S50000x1_S50000x128_0_1
        (Host.rsqrt
          (addf (hostRowMean (mulf (hostCentred y) (hostCentred y)))
            (broadcastInDim S50000x1 ![] bcast_S_S50000x1 (constant (F := Ideal) S_ .f32 0x3727C5AC#32))))
        (ix2 r q)
      = Ideal.rsqrt (mean (fun k => (y (ix2 r k) - mean (fun k' => y (ix2 r k')))
          * (y (ix2 r k) - mean (fun k' => y (ix2 r k')))) + offset) := by
    refine (col_all_apply _ r q).trans ?_
    refine (hostRsqrt_apply _ _).trans ?_
    refine congrArg Ideal.rsqrt ?_
    refine (addf_apply _ _ _).trans ?_
    refine congrArg₂ (· + ·) ?_ (splat_apply _ _ _)
    refine (hostRowMean_apply _ r 0).trans ?_
    refine congrArg mean (funext fun k => ?_)
    refine (mulf_apply _ _ _).trans ?_
    rw [hostCentred_apply]
  unfold hostNorm normalise
  refine (addf_apply _ _ _).trans ?_
  refine congrArg₂ (· + ·) ?_ (rowsOf_apply s r q)
  refine (mulf_apply _ _ _).trans ?_
  refine congrArg₂ (· * ·) ?_ (rowsOf_apply g r q)
  refine (mulf_apply _ _ _).trans ?_
  rw [hr, hostCentred_apply]

/-! ## The layers -/

/-- Layer 1 on whole arrays is layer 1 of every row. -/
theorem hostLayer1_eq (A : (⟨S50000x128, .f32⟩ : BufTy).Contents (Elt Ideal)) (b : (⟨S128, .f32⟩ : BufTy).Contents (Elt Ideal))
    (X : (⟨S50000x128, .f32⟩ : BufTy).Contents (Elt Ideal)) (g s : (⟨S128, .f32⟩ : BufTy).Contents (Elt Ideal)) :
    hostLayer1 A b X g s = Cert.GraphConv.post1 A b X g s := by
  funext i
  obtain ⟨r, q, rfl⟩ : ∃ (r : Fin 50000) (q : Fin 128), i = ix2 r q := ⟨i 0, i 1, eq_ix2 i⟩
  show _ = layer1 (fun k => A (ix2 r k)) (fun k => b (ix1 k)) (fun k => X (ix2 r k)) (fun k => g (ix1 k))
    (fun k => s (ix1 k)) q
  unfold hostLayer1 layer1
  refine (hostNorm_apply _ g s r q).trans ?_
  refine congrArg (fun row => normalise row (fun k => g (ix1 k)) (fun k => s (ix1 k)) q) (funext fun k => ?_)
  refine (addf_apply _ _ _).trans ?_
  refine congrArg (· + X (ix2 r k)) ?_
  refine (hostLeaky_apply _ _).trans ?_
  refine congrArg leaky ?_
  refine (addf_apply _ _ _).trans ?_
  exact congrArg (A (ix2 r k) + ·) (rowsOf_apply b r k)

/-- Layer 2 on whole arrays is layer 2 of every row. -/
theorem hostLayer2_eq (A : (⟨S50000x128, .f32⟩ : BufTy).Contents (Elt Ideal)) (b : (⟨S128, .f32⟩ : BufTy).Contents (Elt Ideal))
    (X : (⟨S50000x128, .f32⟩ : BufTy).Contents (Elt Ideal)) (g s : (⟨S128, .f32⟩ : BufTy).Contents (Elt Ideal)) :
    hostLayer2 A b X g s = Cert.GraphConv.post2 A b X g s := by
  funext i
  obtain ⟨r, q, rfl⟩ : ∃ (r : Fin 50000) (q : Fin 128), i = ix2 r q := ⟨i 0, i 1, eq_ix2 i⟩
  show _ = layer2 (fun k => A (ix2 r k)) (fun k => b (ix1 k)) (fun k => X (ix2 r k)) (fun k => g (ix1 k))
    (fun k => s (ix1 k)) q
  unfold hostLayer2 layer2
  refine (hostLeaky_apply _ _).trans ?_
  refine congrArg leaky ?_
  refine (hostNorm_apply _ g s r q).trans ?_
  refine congrArg (fun row => normalise row (fun k => g (ix1 k)) (fun k => s (ix1 k)) q) (funext fun k => ?_)
  refine (addf_apply _ _ _).trans ?_
  refine congrArg (· + X (ix2 r k)) ?_
  refine (addf_apply _ _ _).trans ?_
  exact congrArg (A (ix2 r k) + ·) (rowsOf_apply b r k)

end Cert.ReferenceIdeal.Whole

end
-- ==== Proof.ReferenceRun.lean ====
/-
  The reference program's run, against the specification.

  Every weakly fair execution of the reference program terminates; its result buffer then holds the two-layer
  graph convolution network of the ten inputs, and the inputs are unchanged.  The whole-array reading of the
  program (its pieces composed) meets the row-by-row specification through three facts about the extended
  reals: the two whole-array layers are the row layers applied to every row, and the host's matrix product is
  the row-by-row product.
-/
import proofs.«166512_j2954937500451_1_alg».proof.Proof.ReferenceStages
import proofs.«166512_j2954937500451_1_alg».proof.Proof.ReferenceRows

noncomputable section

namespace Cert.ReferenceIdeal.Whole

open Cert.ReferenceIdeal Idealize.ShloMosaic Idealize.ShloMosaic.TcCoe Idealize.SL.Sem Idealize.ShloMosaic.StableHlo

/-- The first layer on whole arrays is the row layer on every row. -/
theorem layer1W_eq (A : (⟨S50000x128, .f32⟩ : BufTy).Contents (Elt Ideal)) (b : (⟨S128, .f32⟩ : BufTy).Contents (Elt Ideal))
    (X : (⟨S50000x128, .f32⟩ : BufTy).Contents (Elt Ideal)) (g s : (⟨S128, .f32⟩ : BufTy).Contents (Elt Ideal)) :
    layer1W (F := Ideal) A b X g s = Cert.GraphConv.post1 A b X g s :=
  (show layer1W (F := Ideal) A b X g s = hostLayer1 A b X g s from rfl).trans (hostLayer1_eq A b X g s)

/-- The second layer on whole arrays is the row layer on every row. -/
theorem layer2W_eq (A : (⟨S50000x128, .f32⟩ : BufTy).Contents (Elt Ideal)) (b : (⟨S128, .f32⟩ : BufTy).Contents (Elt Ideal))
    (X : (⟨S50000x128, .f32⟩ : BufTy).Contents (Elt Ideal)) (g s : (⟨S128, .f32⟩ : BufTy).Contents (Elt Ideal)) :
    layer2W (F := Ideal) A b X g s = Cert.GraphConv.post2 A b X g s :=
  (show layer2W (F := Ideal) A b X g s = hostLayer2 A b X g s from rfl).trans (hostLayer2_eq A b X g s)

/-- The host's matrix product is the row-by-row product. -/
theorem denseW_eq (A : (⟨S50000x128, .f32⟩ : BufTy).Contents (Elt Ideal)) (W : (⟨S128x128, .f32⟩ : BufTy).Contents (Elt Ideal)) :
    denseW (F := Ideal) A W = Cert.GraphConv.dense A W :=
  hostDense_eq A W

/-- One propagation step on whole arrays is the specification's. -/
theorem propW_eq (ei : (⟨S2x800000, .i32⟩ : BufTy).Contents (Elt Ideal)) (A : (⟨S50000x128, .f32⟩ : BufTy).Contents (Elt Ideal))
    (W : (⟨S128x128, .f32⟩ : BufTy).Contents (Elt Ideal)) :
    propW (F := Ideal) ei A W = Cert.GraphConv.propagate ei A W := by
  unfold propW Cert.GraphConv.propagate
  rw [denseW_eq]

/-- The whole-array network is the specification's network. -/
theorem netW_eq (x : (⟨S50000x128, .f32⟩ : BufTy).Contents (Elt Ideal)) (ei : (⟨S2x800000, .i32⟩ : BufTy).Contents (Elt Ideal))
    (W1 : (⟨S128x128, .f32⟩ : BufTy).Contents (Elt Ideal)) (b1 g1 s1 : (⟨S128, .f32⟩ : BufTy).Contents (Elt Ideal))
    (W2 : (⟨S128x128, .f32⟩ : BufTy).Contents (Elt Ideal)) (b2 g2 s2 : (⟨S128, .f32⟩ : BufTy).Contents (Elt Ideal)) :
    netW (F := Ideal) x ei W1 b1 g1 s1 W2 b2 g2 s2 = Cert.GraphConv.network x ei W1 b1 g1 s1 W2 b2 g2 s2 := by
  unfold netW Cert.GraphConv.network
  rw [layer2W_eq, propW_eq, layer1W_eq, propW_eq]

/-- On every device, from any memory with zero counters: every weakly fair execution of the reference program
    terminates with its result buffer at the network of the ten inputs and the inputs unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v138)
        = Cert.GraphConv.network (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v138).trans ((out_eq _).trans (netW_eq ..)),
      (h c main_arg0).trans (ops_frame _ (by decide) (by decide) (by decide) (by decide) (by decide) (by decide) (by decide) (by decide) (by decide) (by decide) (by decide)),
      (h c main_arg1).trans (ops_frame _ (by decide) (by decide) (by decide) (by decide) (by decide) (by decide) (by decide) (by decide) (by decide) (by decide) (by decide)),
      (h c main_arg2).trans (ops_frame _ (by decide) (by decide) (by decide) (by decide) (by decide) (by decide) (by decide) (by decide) (by decide) (by decide) (by decide)),
      (h c main_arg3).trans (ops_frame _ (by decide) (by decide) (by decide) (by decide) (by decide) (by decide) (by decide) (by decide) (by decide) (by decide) (by decide)),
      (h c main_arg4).trans (ops_frame _ (by decide) (by decide) (by decide) (by decide) (by decide) (by decide) (by decide) (by decide) (by decide) (by decide) (by decide)),
      (h c main_arg5).trans (ops_frame _ (by decide) (by decide) (by decide) (by decide) (by decide) (by decide) (by decide) (by decide) (by decide) (by decide) (by decide)),
      (h c main_arg6).trans (ops_frame _ (by decide) (by decide) (by decide) (by decide) (by decide) (by decide) (by decide) (by decide) (by decide) (by decide) (by decide)),
      (h c main_arg7).trans (ops_frame _ (by decide) (by decide) (by decide) (by decide) (by decide) (by decide) (by decide) (by decide) (by decide) (by decide) (by decide)),
      (h c main_arg8).trans (ops_frame _ (by decide) (by decide) (by decide) (by decide) (by decide) (by decide) (by decide) (by decide) (by decide) (by decide) (by decide)),
      (h c main_arg9).trans (ops_frame _ (by decide) (by decide) (by decide) (by decide) (by decide) (by decide) (by decide) (by decide) (by decide) (by decide) (by decide))⟩)
    (run_main m ρ)

end Cert.ReferenceIdeal.Whole

end
-- ==== Proof.lean ====
/-
  A two-layer graph convolution, tiled against whole arrays: the certificate's claims.

  The kernel computes each layer's dense step (features times a 128 x 128 weight matrix) and each layer's
  per-row work (bias, leaky rectifier, residual, row normalisation; in layer 2 the rectifier comes last) in
  tiled regions of 2000 rows, and leaves the graph side — endpoints with self-loops, degrees, edge weights,
  gather, scale, scatter-add — to host operations.  The reference does everything with host operations on whole
  arrays.  Over the extended reals both results are the same function of the arguments, `network`: a tile of
  rows is a restriction of the whole-array function, the tiles cover the arrays, a matrix product into a zero
  accumulator is the host's contraction, a lane sum is the host's row sum from zero, the two spellings of the
  rectifier agree (they differ only at zero, where both give zero), and the graph side is the same operations
  on the same edge table in both programs, carried as named functions and never opened.  No law used needs
  finiteness, so the precondition is never opened.

  The idealization rewrote nothing, so the kernel's sanctioned idealization is its own text read at the ideal
  values; the three frames are the generated frame certificates for the two kernel programs and the reference's
  run with the result dropped.
-/
import proofs.«166512_j2954937500451_1_alg».proof.Defs
import proofs.«166512_j2954937500451_1_alg».proof.Proof.Gen.Kernel
import proofs.«166512_j2954937500451_1_alg».proof.Proof.Gen.Kernel.Frame
import proofs.«166512_j2954937500451_1_alg».proof.Proof.Gen.KernelIdeal
import proofs.«166512_j2954937500451_1_alg».proof.Proof.Gen.KernelIdeal.Frame
import proofs.«166512_j2954937500451_1_alg».proof.Proof.Gen.ReferenceIdeal
import proofs.«166512_j2954937500451_1_alg».proof.Proof.Gen.Pre_finite_inputs
import proofs.«166512_j2954937500451_1_alg».proof.Proof.KernelRun
import proofs.«166512_j2954937500451_1_alg».proof.Proof.KernelChain
import proofs.«166512_j2954937500451_1_alg».proof.Proof.ReferenceRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Whole.run m ρ)

/-- The idealization rewrote no operation. -/
theorem preserves : Cert.preserves_Kernel_KernelIdeal := trivial

/-- From memories that agree on the arguments both idealized programs end with the network of the arguments
    in their result buffers. -/
theorem algebraic : Cert.algebraic_KernelIdeal_ReferenceIdeal := by
  intro m ρ m' ρ' _ hagree
  refine ⟨fun c => Cert.GraphConv.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.result_eq m ρ c), (h c).2⟩)
      (Cert.KernelIdeal.Whole.run_main (F := Ideal) m ρ)
  · refine (θ_run Cert.ReferenceIdeal.defs _ _).mono (fun r h c => ⟨(h c).1.trans ?_, (h c).2⟩)
      (Cert.ReferenceIdeal.Whole.run m' ρ')
    obtain ⟨e0, e1, e2, e3, e4, e5, e6, e7, e8, e9⟩ := hagree c
    rw [e0, e1, e2, e3, e4, e5, e6, e7, e8, e9]

/-- The five claims, under the programs' stated facts as the imported modules prove them. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
